-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S1024x1024 : Shape := ⟨2, ![1024, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S1024x1024 .f32) (main_arg8 : FVec F S1024 .f32) (main_arg9 : FVec F S1024x1024 .f32) (main_arg10 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S2x2048x1024 .f32) (main_arg1 : FVec F S2x2048x1024 .f32) (main_arg2 : FVec F S2x2048x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S2x2048x1024 .f32 := Host.absf main_arg1
  let main_cst_0 : FVec F S_ .f32 := constant S_ .f32 0x7F800000#32
  let main_v5 : FVec F S2x2048x1024 .f32 := broadcastInDim S2x2048x1024 ![] bcast_S_S2x2048x1024 main_cst_0
  let main_v6 : IVec S2x2048x1024 1 := cmpf .olt main_v4 main_v5
  let main_c_1 : IVec S_ 1 := constantI S_ 1 1#1
  let main_v7 : IVec S_ 1 := (fun x v => Host.reduce IntOp.andi x v reducesTo_S2x2048x1024_S_d0_1_2 h_S_) main_v6 main_c_1
  let main_v8 : IVec S_ 1 := andi main_v3 main_v7
  let main_v9 : FVec F S2x2048x1024 .f32 := Host.absf main_arg2
  let main_cst_2 : FVec F S_ .f32 := constant S_ .f32 0x7F800000#32
  let main_v10 : FVec F S2x2048x1024 .f32 := broadcastInDim S2x2048x1024 ![] bcast_S_S2x2048x1024 main_cst_2
  let main_v11 : IVec S2x2048x1024 1 := cmpf .olt main_v9 main_v10
  let main_c_3 : IVec S_ 1 := constantI S_ 1 1#1
  let main_v12 : IVec S_ 1 := (fun x v => Host.reduce IntOp.andi x v reducesTo_S2x2048x1024_S_d0_1_2 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_v13 main_v16
-- ==== Kernel.lean ====
abbrev S2x2048x1024 : Shape := ⟨3, ![2, 2048, 1024]⟩
abbrev S1024x1024 : Shape := ⟨2, ![1024, 1024]⟩
abbrev S1024 : Shape := ⟨1, ![1024]⟩
abbrev S4096x1024 : Shape := ⟨2, ![4096, 1024]⟩
abbrev S1x1024 : Shape := ⟨2, ![1, 1024]⟩
abbrev S1x512x128 : Shape := ⟨3, ![1, 512, 128]⟩
abbrev S1x2048x128 : Shape := ⟨3, ![1, 2048, 128]⟩
abbrev S512x128 : Shape := ⟨2, ![512, 128]⟩
abbrev S2048x128 : Shape := ⟨2, ![2048, 128]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩

abbrev nBuf : Space → Nat
  | .hbm => 36
  | .vmem => 32
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S4096x1024, .f32⟩
  | .hbm, ⟨12, _⟩ => ⟨S1024x1024, .f32⟩
  | .hbm, ⟨13, _⟩ => ⟨S1024x1024, .bf16⟩
  | .hbm, ⟨14, _⟩ => ⟨S1x1024, .f32⟩
  | .hbm, ⟨15, _⟩ => ⟨S4096x1024, .bf16⟩
  | .hbm, ⟨16, _⟩ => ⟨S2x2048x1024, .bf16⟩
  | .hbm, ⟨17, _⟩ => ⟨S4096x1024, .f32⟩
  | .hbm, ⟨18, _⟩ => ⟨S1024x1024, .f32⟩
  | .hbm, ⟨19, _⟩ => ⟨S1024x1024, .bf16⟩
  | .hbm, ⟨20, _⟩ => ⟨S1x1024, .f32⟩
  | .hbm, ⟨21, _⟩ => ⟨S4096x1024, .bf16⟩
  | .hbm, ⟨22, _⟩ => ⟨S2x2048x1024, .bf16⟩
  | .hbm, ⟨23, _⟩ => ⟨S4096x1024, .f32⟩
  | .hbm, ⟨24, _⟩ => ⟨S1024x1024, .f32⟩
  | .hbm, ⟨25, _⟩ => ⟨S1024x1024, .bf16⟩
  | .hbm, ⟨26, _⟩ => ⟨S1x1024, .f32⟩
  | .hbm, ⟨27, _⟩ => ⟨S4096x1024, .bf16⟩
  | .hbm, ⟨28, _⟩ => ⟨S2x2048x1024, .bf16⟩
  | .hbm, ⟨29, _⟩ => ⟨S2x2048x1024, .bf16⟩
  | .hbm, ⟨30, _⟩ => ⟨S4096x1024, .bf16⟩
  | .hbm, ⟨31, _⟩ => ⟨S1024x1024, .f32⟩
  | .hbm, ⟨32, _⟩ => ⟨S1024x1024, .bf16⟩
  | .hbm, ⟨33, _⟩ => ⟨S1x1024, .f32⟩
  | .hbm, ⟨34, _⟩ => ⟨S4096x1024, .f32⟩
  | .hbm, ⟨35, _⟩ => ⟨S2x2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .f32⟩
  | .local _ .vmem, ⟨13, _⟩ => ⟨S1024x1024, .f32⟩
  | .local _ .vmem, ⟨14, _⟩ => ⟨S1024x1024, .bf16⟩
  | .local _ .vmem, ⟨15, _⟩ => ⟨S1x1024, .f32⟩
  | .local _ .vmem, ⟨16, _⟩ => ⟨S1024x1024, .bf16⟩
  | .local _ .vmem, ⟨17, _⟩ => ⟨S1024x1024, .bf16⟩
  | .local _ .vmem, ⟨18, _⟩ => ⟨S1x512x128, .bf16⟩
  | .local _ .vmem, ⟨19, _⟩ => ⟨S1x512x128, .bf16⟩
  | .local _ .vmem, ⟨20, _⟩ => ⟨S1x2048x128, .bf16⟩
  | .local _ .vmem, ⟨21, _⟩ => ⟨S1x2048x128, .bf16⟩
  | .local _ .vmem, ⟨22, _⟩ => ⟨S1x2048x128, .bf16⟩
  | .local _ .vmem, ⟨23, _⟩ => ⟨S1x2048x128, .bf16⟩
  | .local _ .vmem, ⟨24, _⟩ => ⟨S1x512x128, .bf16⟩
  | .local _ .vmem, ⟨25, _⟩ => ⟨S1x512x128, .bf16⟩
  | .local _ .vmem, ⟨26, _⟩ => ⟨S1024x1024, .bf16⟩
  | .local _ .vmem, ⟨27, _⟩ => ⟨S1024x1024, .bf16⟩
  | .local _ .vmem, ⟨28, _⟩ => ⟨S1024x1024, .bf16⟩
  | .local _ .vmem, ⟨29, _⟩ => ⟨S1x1024, .f32⟩
  | .local _ .vmem, ⟨30, _⟩ => ⟨S1024x1024, .f32⟩
  | .local _ .vmem, ⟨31, _⟩ => ⟨S1024x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg3_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg3_0 : Ref sig .tc := ⟨.vmem, 30, rfl⟩
abbrev cc4_stg3_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem3_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem3_0 : DmaSem sig := 30
abbrev cc4_sem3_1 : DmaSem sig := 31

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1024x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨3, ![2, 8, 4], ![false, false, false]⟩

def cc3_transform_0 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc3_transform_1 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc3_transform_2 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc3_transform_3 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage3_0 : Fin 2 → Memref sig .tc .vmem S1x512x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true, true]

abbrev stage3_1 : Fin 2 → Memref sig .tc .vmem S1x2048x128 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true, false]

abbrev stage3_2 : Fin 2 → Memref sig .tc .vmem S1x2048x128 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev stage3_3 : Fin 2 → Memref sig .tc .vmem S1x512x128 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, true]

abbrev grid4 : Pipeline.Grid := ⟨1, ![4], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1024x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1024x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x1024 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S1024x1024 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  shapeCasts_S2x2048x1024_S4096x1024 : S2x2048x1024.ShapeCasts S4096x1024
  transposes_S1024x1024_S1024x1024_1_0 : S1024x1024.Transposes [1, 0] S1024x1024
  bitsLt_bf16_f32 : FTy.bits .bf16 < FTy.bits .f32
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  packedbf16_S1024x1024_S1024x1024_0_0 : (Rect.unit (s := S1024x1024) ![0, 0] S1024x1024.size inb_S1024x1024_S1024x1024_0_0).PackedRows (EltTy.packing .bf16)
  shapeCasts_S4096x1024_S2x2048x1024 : S4096x1024.ShapeCasts S2x2048x1024
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  slices_S512x128_o0_0_S512x64 : S512x128.Slices ![0, 0] S512x64
  slices_S2048x128_o0_0_S2048x64 : S2048x128.Slices ![0, 0] S2048x64
  reduces_S512x2048_S512 : S512x2048.Reduces [1] S512
  shapeCasts_S512_S512x1 : S512.ShapeCasts S512x1
  broadcasts_S512x1_S512x2048 : S512x1.Broadcasts S512x2048
  slices_S512x128_o0_64_S512x64 : S512x128.Slices ![0, 64] S512x64
  slices_S2048x128_o0_64_S2048x64 : S2048x128.Slices ![0, 64] S2048x64
  concatenates_S512x64_S512x64_S512x128_d1 : Shape.Concatenates [S512x64, S512x64] S512x128 1
  shapeCasts_S512x128_S1x512x128 : S512x128.ShapeCasts S1x512x128
  packedbf16_S1x512x128_S1x512x128_0_0_0 : (Rect.unit (s := S1x512x128) ![0, 0, 0] S1x512x128.size inb_S1x512x128_S1x512x128_0_0_0).PackedRows (EltTy.packing .bf16)
  dot_S1024x1024_S1024x1024_S1024x1024_1_0_0_1_n_n_wf : DotDims.WF S1024x1024 S1024x1024 S1024x1024 [1] [0] [0] [1] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .f32 = 32 ∨ (Rect.block (s := S4096x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x1024.size a
  hwx0_3 : ∀ i : grid0.Coords, EltTy.bits .bf16 = 32 ∨ (Rect.block (s := S4096x1024) S1024x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S4096x1024.size a
  hwx1_0 : ∀ i : grid1.Coords, EltTy.bits .f32 = 32 ∨ (Rect.block (s := S4096x1024) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S4096x1024.size a
  hwx1_3 : ∀ i : grid1.Coords, EltTy.bits .bf16 = 32 ∨ (Rect.block (s := S4096x1024) S1024x1024.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S4096x1024.size a
  hwx2_0 : ∀ i : grid2.Coords, EltTy.bits .f32 = 32 ∨ (Rect.block (s := S4096x1024) S1024x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S4096x1024.size a
  hwx2_3 : ∀ i : grid2.Coords, EltTy.bits .bf16 = 32 ∨ (Rect.block (s := S4096x1024) S1024x1024.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x512x128.size a ≤ S2x2048x1024.size a
  hwx3_0 : ∀ i : grid3.Coords, EltTy.bits .bf16 = 32 ∨ (Rect.block (s := S2x2048x1024) S1x512x128.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x2048x128.size a ≤ S2x2048x1024.size a
  hwx3_1 : ∀ i : grid3.Coords, EltTy.bits .bf16 = 32 ∨ (Rect.block (s := S2x2048x1024) S1x2048x128.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x2048x128.size a ≤ S2x2048x1024.size a
  hwx3_2 : ∀ i : grid3.Coords, EltTy.bits .bf16 = 32 ∨ (Rect.block (s := S2x2048x1024) S1x2048x128.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x512x128.size a ≤ S2x2048x1024.size a
  hwx3_3 : ∀ i : grid3.Coords, EltTy.bits .bf16 = 32 ∨ (Rect.block (s := S2x2048x1024) S1x512x128.size (cc3_transform_3 i) (hinb3_3 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x1024.size a ≤ S4096x1024.size a
  hwx4_0 : ∀ i : grid4.Coords, EltTy.bits .bf16 = 32 ∨ (Rect.block (s := S4096x1024) S1024x1024.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1024x1024.size a ≤ S1024x1024.size a
  hwx4_1 : ∀ i : grid4.Coords, EltTy.bits .bf16 = 32 ∨ (Rect.block (s := S1024x1024) S1024x1024.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1024.size a ≤ S1x1024.size a
  hwx4_2 : ∀ i : grid4.Coords, EltTy.bits .f32 = 32 ∨ (Rect.block (s := S1x1024) S1x1024.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1024x1024.size a ≤ S4096x1024.size a
  hwx4_3 : ∀ i : grid4.Coords, EltTy.bits .f32 = 32 ∨ (Rect.block (s := S4096x1024) S1024x1024.size (cc4_transform_3 i) (hinb4_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v6) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v10) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v12) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v15) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v16) S1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v5) S1x512x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v11) S1x2048x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v17) S1x2048x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v18) S1x512x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v19) S1024x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v21) S1024x1024.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v22) S1x1024.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v23) S1024x1024.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S2x2048x1024 : Shape := ⟨3, ![2, 2048, 1024]⟩
abbrev S1024x1024 : Shape := ⟨2, ![1024, 1024]⟩
abbrev S1024 : Shape := ⟨1, ![1024]⟩
abbrev S1x1x1024 : Shape := ⟨3, ![1, 1, 1024]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 55
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S2x2048x1024, .f32⟩
  | .hbm, ⟨12, _⟩ => ⟨S1x1x1024, .f32⟩
  | .hbm, ⟨13, _⟩ => ⟨S2x2048x1024, .f32⟩
  | .hbm, ⟨14, _⟩ => ⟨S2x2048x1024, .f32⟩
  | .hbm, ⟨15, _⟩ => ⟨S2x2048x16x64, .f32⟩
  | .hbm, ⟨16, _⟩ => ⟨S2x16x2048x64, .f32⟩
  | .hbm, ⟨17, _⟩ => ⟨S2x2048x1024, .f32⟩
  | .hbm, ⟨18, _⟩ => ⟨S1x1x1024, .f32⟩
  | .hbm, ⟨19, _⟩ => ⟨S2x2048x1024, .f32⟩
  | .hbm, ⟨20, _⟩ => ⟨S2x2048x1024, .f32⟩
  | .hbm, ⟨21, _⟩ => ⟨S2x2048x16x64, .f32⟩
  | .hbm, ⟨22, _⟩ => ⟨S2x16x2048x64, .f32⟩
  | .hbm, ⟨23, _⟩ => ⟨S2x2048x1024, .f32⟩
  | .hbm, ⟨24, _⟩ => ⟨S1x1x1024, .f32⟩
  | .hbm, ⟨25, _⟩ => ⟨S2x2048x1024, .f32⟩
  | .hbm, ⟨26, _⟩ => ⟨S2x2048x1024, .f32⟩
  | .hbm, ⟨27, _⟩ => ⟨S2x2048x16x64, .f32⟩
  | .hbm, ⟨28, _⟩ => ⟨S2x16x2048x64, .f32⟩
  | .hbm, ⟨29, _⟩ => ⟨S2x16x2048x2048, .f32⟩
  | .hbm, ⟨30, _⟩ => ⟨S_, .f32⟩
  | .hbm, ⟨31, _⟩ => ⟨S_, .f32⟩
  | .hbm, ⟨32, _⟩ => ⟨S2x16x2048x2048, .f32⟩
  | .hbm, ⟨33, _⟩ => ⟨S2x16x2048x2048, .f32⟩
  | .hbm, ⟨34, _⟩ => ⟨S_, .f32⟩
  | .hbm, ⟨35, _⟩ => ⟨S2x16x2048, .f32⟩
  | .hbm, ⟨36, _⟩ => ⟨S_, .f32⟩
  | .hbm, ⟨37, _⟩ => ⟨S2x16x2048, .f32⟩
  | .hbm, ⟨38, _⟩ => ⟨S2x16x2048, .f32⟩
  | .hbm, ⟨39, _⟩ => ⟨S2x16x2048x1, .f32⟩
  | .hbm, ⟨40, _⟩ => ⟨S2x16x2048x2048, .f32⟩
  | .hbm, ⟨41, _⟩ => ⟨S2x16x2048x2048, .f32⟩
  | .hbm, ⟨42, _⟩ => ⟨S2x16x2048x2048, .f32⟩
  | .hbm, ⟨43, _⟩ => ⟨S_, .f32⟩
  | .hbm, ⟨44, _⟩ => ⟨S2x16x2048, .f32⟩
  | .hbm, ⟨45, _⟩ => ⟨S2x16x2048x1, .f32⟩
  | .hbm, ⟨46, _⟩ => ⟨S2x16x2048x2048, .f32⟩
  | .hbm, ⟨47, _⟩ => ⟨S2x16x2048x2048, .f32⟩
  | .hbm, ⟨48, _⟩ => ⟨S2x16x2048x64, .f32⟩
  | .hbm, ⟨49, _⟩ => ⟨S2x2048x16x64, .f32⟩
  | .hbm, ⟨50, _⟩ => ⟨S2x2048x1024, .f32⟩
  | .hbm, ⟨51, _⟩ => ⟨S2x2048x1024, .f32⟩
  | .hbm, ⟨52, _⟩ => ⟨S1x1x1024, .f32⟩
  | .hbm, ⟨53, _⟩ => ⟨S2x2048x1024, .f32⟩
  | .hbm, ⟨54, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_0 : Ref sig .tc := ⟨.hbm, 34, rfl⟩
abbrev main_v22 : Ref sig .tc := ⟨.hbm, 35, rfl⟩
abbrev main_cst_1 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_2 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S2x2048x1024_S1024x1024_S2x2048x1024_2_1_01_0_n_n_wf : DotDims.WF S2x2048x1024 S1024x1024 S2x2048x1024 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.Spec.lean ====
/-
  Multi-head attention with its four dense projections, as one function of the eleven argument arrays, on the
  extended reals.

  A dense layer here is x ↦ x·Wᵀ + b: entry (n, s, e) is (∑ d, x (n, s, d) · W (e, d)) + b e.  The 1024 features
  are sixteen heads of 64 consecutive features; the features of the head that holds feature e are 64·(e / 64) + d,
  d < 64.  Within a batch entry n and a head, query row s is scored against every key row j, the row of scores is
  shifted by its maximum and exponentiated, the weights are divided by their sum, and the value rows are mixed with
  those probabilities.  The result goes through one more dense layer.

  The score is stated twice: with the query's entries multiplied by a constant c before the contraction, and with the
  contraction divided by a constant r after it.  For c = 1/8 and r = 8 the two agree on all extended reals:
  multiplication is commutative and associative there, a nonnegative real factor distributes over any sum, and
  dividing by the real 8 is multiplying by 1/8.  Nothing else in the function differs, so the two whole functions
  are equal without any finiteness assumption.
-/
import Idealize.ShloMosaic.PureOps.Ideal.Laws
import Idealize.ShloMosaic.Lib.ValueIdx

noncomputable section

open scoped BigOperators

namespace Cert.MHA

open Idealize.ShloMosaic Idealize.ShloMosaic.ValueIdx

abbrev A3 : Shape := ⟨3, ![2, 2048, 1024]⟩
abbrev W2 : Shape := ⟨2, ![1024, 1024]⟩
abbrev B1 : Shape := ⟨1, ![1024]⟩

/-- A dense layer x·Wᵀ + b at batch entry `n`, row `s`, output feature `e`. -/
def projAt (x : A3.Idx → EReal) (w : W2.Idx → EReal) (b : B1.Idx → EReal) (n : Fin 2) (s : Fin 2048) (e : Fin 1024) : EReal :=
  (∑ d : Fin 1024, x (ix3 n s d) * w (ix2 e d)) + b (ix1 e)

/-- The dense layer as a whole array. -/
def proj (x : A3.Idx → EReal) (w : W2.Idx → EReal) (b : B1.Idx → EReal) : A3.Idx → EReal :=
  fun i => projAt x w b (i 0) (i 1) (i 2)

/-- Feature `d` of the head that holds feature `e`. -/
def feat (e : Fin 1024) (d : Fin 64) : Fin 1024 :=
  ⟨64 * (e.val / 64) + d.val, by have := e.isLt; have := d.isLt; omega⟩

/-- The maximum of a row of scores (the fold of max from the bottom element). -/
def rowMax (σ : Fin 2048 → EReal) : EReal := (Finset.univ : Finset (Fin 2048)).fold max ⊥ σ

/-- The unnormalised weight of key row `j`. -/
def wgt (σ : Fin 2048 → EReal) (j : Fin 2048) : EReal := Ideal.exp (σ j - rowMax σ)

/-- The sum of a row's weights. -/
def den (σ : Fin 2048 → EReal) : EReal := ∑ j : Fin 2048, wgt σ j

/-- The probability of key row `j`. -/
def prob (σ : Fin 2048 → EReal) (j : Fin 2048) : EReal := Ideal.div (wgt σ j) (den σ)

/-- A column `u` mixed with the probabilities of the score row `σ`. -/
def mix (σ u : Fin 2048 → EReal) : EReal := ∑ j : Fin 2048, prob σ j * u j

/-- The score with the query scaled by `c` before the contraction. -/
def scoreK (c : EReal) (qp kp : A3.Idx → EReal) (n : Fin 2) (s : Fin 2048) (e : Fin 1024) (j : Fin 2048) : EReal :=
  ∑ d : Fin 64, (qp (ix3 n s (feat e d)) * c) * kp (ix3 n j (feat e d))

/-- The score with the contraction divided by `r`. -/
def scoreR (r : EReal) (qp kp : A3.Idx → EReal) (n : Fin 2) (s : Fin 2048) (e : Fin 1024) (j : Fin 2048) : EReal :=
  Ideal.div (∑ d : Fin 64, qp (ix3 n s (feat e d)) * kp (ix3 n j (feat e d))) r

/-- The attention output at (n, s, e) for a given score function. -/
def attnAt (sc : Fin 2 → Fin 2048 → Fin 1024 → Fin 2048 → EReal) (vp : A3.Idx → EReal)
    (n : Fin 2) (s : Fin 2048) (e : Fin 1024) : EReal :=
  mix (sc n s e) (fun j => vp (ix3 n j e))

/-- The attention output as a whole array. -/
def attn (sc : Fin 2 → Fin 2048 → Fin 1024 → Fin 2048 → EReal) (vp : A3.Idx → EReal) : A3.Idx → EReal :=
  fun i => attnAt sc vp (i 0) (i 1) (i 2)

/-- The whole function, for a given way of scoring projected queries against projected keys. -/
def outWith (sc : (A3.Idx → EReal) → (A3.Idx → EReal) → Fin 2 → Fin 2048 → Fin 1024 → Fin 2048 → EReal)
    (x0 x1 x2 : A3.Idx → EReal) (x3 : W2.Idx → EReal) (x4 : B1.Idx → EReal) (x5 : W2.Idx → EReal) (x6 : B1.Idx → EReal)
    (x7 : W2.Idx → EReal) (x8 : B1.Idx → EReal) (x9 : W2.Idx → EReal) (x10 : B1.Idx → EReal) : A3.Idx → EReal :=
  proj (attn (sc (proj x0 x3 x4) (proj x1 x5 x6)) (proj x2 x7 x8)) x9 x10

/-- The constant the query is scaled by: the bf16 word of 0.125. -/
def cK : EReal := Ideal.ofBits .bf16 0x3E00#16

/-- The constant the scores are divided by: the square root of the f32 word of 64. -/
def rR : EReal := Ideal.sqrt (Ideal.ofBits .f32 0x42800000#32)

/-- The whole function with the query scaled first. -/
def outK := outWith (scoreK cK)

/-- The whole function with the scores divided afterwards. -/
def outR := outWith (scoreR rR)

theorem cK_eq : cK = ((1 / 8 : ℝ) : EReal) := by
  unfold cK
  simp [Ideal.ofBits, Ideal.ieee, -EReal.coe_mul]; norm_num

theorem rR_eq : rR = ((8 : ℝ) : EReal) := by
  unfold rR
  have h64 : Ideal.ofBits .f32 0x42800000#32 = ((64 : ℝ) : EReal) := by
    simp [Ideal.ofBits, Ideal.ieee, -EReal.coe_mul]; norm_num
  rw [h64]
  show (if (64 : ℝ) < 0 then ⊥ else (Real.sqrt 64 : EReal)) = _
  rw [if_neg (by norm_num)]
  have : Real.sqrt 64 = 8 := by
    rw [show (64 : ℝ) = 8 ^ 2 by norm_num]; exact Real.sqrt_sq (by norm_num)
  rw [this]

/-- A nonnegative real factor distributes over a finite sum of extended reals. -/
theorem sum_mul_real {ι : Type} (s : Finset ι) (f : ι → EReal) (c : ℝ) (hc : 0 ≤ c) :
    ∑ i ∈ s, f i * (c : EReal) = (∑ i ∈ s, f i) * (c : EReal) := by
  classical
  induction s using Finset.induction_on with
  | empty => simp
  | insert a s ha ih =>
    rw [Finset.sum_insert ha, Finset.sum_insert ha, ih,
      EReal.right_distrib_of_nonneg_of_ne_top (EReal.coe_nonneg.mpr hc) (EReal.coe_ne_top c)]

/-- Scaling the query by 1/8 before the contraction is dividing the contraction by 8. -/
theorem scoreK_eq_scoreR : scoreK cK = scoreR rR := by
  funext qp kp n s e j
  unfold scoreK scoreR
  rw [cK_eq, rR_eq, Ideal.div_coe (by norm_num : (8 : ℝ) ≠ 0), ← sum_mul_real _ _ _ (by norm_num)]
  exact Finset.sum_congr rfl fun d _ => mul_right_comm _ _ _

theorem outK_eq_outR : outK = outR := by
  unfold outK outR
  rw [scoreK_eq_scoreR]

end Cert.MHA

end
-- ==== Proof.KRun.lean ====
/-
  The idealized kernel's run with its result named.

  The program is five kernel regions among six stretches of host operations.  Every weakly fair execution from any
  memory with zero counters terminates, nothing faulting; in the final state the result buffer holds what the fold of
  the buffer contents through the eleven segments leaves there (the final valuation `W11`), and the eleven argument
  arrays are as launched.  The argument is the launch over the program's segments, each region entered from and left
  at "every unscoped buffer at the boundary's contents"; the final thread state is read against the final state at the
  result buffer as well as at the arguments.
-/
import proofs.«166252_j2138893713467_2_alg».proof.Proof.Gen.KernelIdeal.Frame

set_option maxRecDepth 16384

noncomputable section

namespace Cert.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates with the result buffer at the final valuation and the arguments as
    launched. -/
theorem run : θ_run defs (onTc (τ := τ) (main (F := F))) ⟨m, fun _ => 0, ρ⟩ (fun r => ∀ c : Dev nD,
      r.2.mem ((c.tc : Thread nD τ).loc main_v24) = W11 m ρ c (Proc.devRef .tc main_v24)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v24 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c)⟩)

end Cert.KRun

end
-- ==== Proof.Walk.lean ====
/-
  The buffer contents a region finds, walked back through the program.

  The program alternates stretches of host operations (reshapes between [2, 2048, 1024] and [4096, 1024], a weight
  matrix transposed and narrowed, a bias vector regarded as one row) with kernel regions.  A buffer that a stretch
  does not write and that is not one of a region's arrays passes through unchanged, so every array a region reads is
  either a host operation's value of an argument array, or of the output array of an earlier region.  On the
  extended reals the narrowing of a weight matrix is the identity.
-/
import proofs.«166252_j2138893713467_2_alg».proof.Proof.Gen.KernelIdeal.Frame
import Idealize.ShloMosaic.PureOps.Ideal.Laws

set_option maxRecDepth 16384

noncomputable section

namespace Cert.Walk

open Idealize.ShloMosaic Idealize.ShloMosaic.TcCoe Idealize.ShloMosaic.Tactic Idealize.SL.Sem
open Cert.KernelIdeal Cert.KernelIdeal.Gen

variable (m : (ℓ : Loc nD τ sig) → Buf (Elt Ideal) ℓ) (ρ : Dev nD → PrngReg) (c : Dev nD)

/-- A stretch of host operations leaves a buffer it does not write as it was. -/
macro "skip_host" : tactic => `(tactic|
  exact StableHlo.after_of_forall_not_mem _ _ (List.forall_iff_forall_mem.mp (by
    simp only [hostOps0, hostOps1, hostOps2, hostOps3, hostOps4, hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

/-! ## Argument arrays at the regions' entries -/

theorem W2_arg (b : Ref sig .tc) (h0 : ∀ w, Pipeline.arrRef spec0 w ≠ b)
    (h : W1 m ρ c (Proc.devRef .tc b) = W0 m ρ c (Proc.devRef .tc b)) :
    W2 m ρ c (Proc.devRef .tc b) = m ((c : Thread nD τ).loc b) :=
  (W2_of_ne m ρ c b h0).trans h

theorem W2_arg1 : W2 m ρ c (Proc.devRef .tc main_arg1) = m ((c : Thread nD τ).loc main_arg1) :=
  W2_arg m ρ c main_arg1 (by decide) (by skip_host)
theorem W2_arg5 : W2 m ρ c (Proc.devRef .tc main_arg5) = m ((c : Thread nD τ).loc main_arg5) :=
  W2_arg m ρ c main_arg5 (by decide) (by skip_host)
theorem W2_arg6 : W2 m ρ c (Proc.devRef .tc main_arg6) = m ((c : Thread nD τ).loc main_arg6) :=
  W2_arg m ρ c main_arg6 (by decide) (by skip_host)

theorem W4_arg (b : Ref sig .tc) (h0 : ∀ w, Pipeline.arrRef spec0 w ≠ b) (h1 : ∀ w, Pipeline.arrRef spec1 w ≠ b)
    (h : W1 m ρ c (Proc.devRef .tc b) = W0 m ρ c (Proc.devRef .tc b))
    (h' : W3 m ρ c (Proc.devRef .tc b) = W2 m ρ c (Proc.devRef .tc b)) :
    W4 m ρ c (Proc.devRef .tc b) = m ((c : Thread nD τ).loc b) :=
  (W4_of_ne m ρ c b h1).trans (h'.trans (W2_arg m ρ c b h0 h))

theorem W4_arg2 : W4 m ρ c (Proc.devRef .tc main_arg2) = m ((c : Thread nD τ).loc main_arg2) :=
  W4_arg m ρ c main_arg2 (by decide) (by decide) (by skip_host) (by skip_host)
theorem W4_arg7 : W4 m ρ c (Proc.devRef .tc main_arg7) = m ((c : Thread nD τ).loc main_arg7) :=
  W4_arg m ρ c main_arg7 (by decide) (by decide) (by skip_host) (by skip_host)
theorem W4_arg8 : W4 m ρ c (Proc.devRef .tc main_arg8) = m ((c : Thread nD τ).loc main_arg8) :=
  W4_arg m ρ c main_arg8 (by decide) (by decide) (by skip_host) (by skip_host)

theorem W8_arg (b : Ref sig .tc) (h0 : ∀ w, Pipeline.arrRef spec0 w ≠ b) (h1 : ∀ w, Pipeline.arrRef spec1 w ≠ b)
    (h2 : ∀ w, Pipeline.arrRef spec2 w ≠ b) (h3 : ∀ w, Pipeline.arrRef spec3 w ≠ b)
    (h : W1 m ρ c (Proc.devRef .tc b) = W0 m ρ c (Proc.devRef .tc b))
    (h' : W3 m ρ c (Proc.devRef .tc b) = W2 m ρ c (Proc.devRef .tc b))
    (h'' : W5 m ρ c (Proc.devRef .tc b) = W4 m ρ c (Proc.devRef .tc b))
    (h''' : W7 m ρ c (Proc.devRef .tc b) = W6 m ρ c (Proc.devRef .tc b)) :
    W8 m ρ c (Proc.devRef .tc b) = m ((c : Thread nD τ).loc b) :=
  (W8_of_ne m ρ c b h3).trans (h'''.trans ((W6_of_ne m ρ c b h2).trans (h''.trans (W4_arg m ρ c b h0 h1 h h'))))

theorem W8_arg9 : W8 m ρ c (Proc.devRef .tc main_arg9) = m ((c : Thread nD τ).loc main_arg9) :=
  W8_arg m ρ c main_arg9 (by decide) (by decide) (by decide) (by decide) (by skip_host) (by skip_host) (by skip_host) (by skip_host)
theorem W8_arg10 : W8 m ρ c (Proc.devRef .tc main_arg10) = m ((c : Thread nD τ).loc main_arg10) :=
  W8_arg m ρ c main_arg10 (by decide) (by decide) (by decide) (by decide) (by skip_host) (by skip_host) (by skip_host) (by skip_host)

/-! ## Region 0's arrays at its entry -/

theorem V1_v0 : (V1 m ρ c main_v0 : S4096x1024.Idx → EReal)
    = shapeCast S4096x1024 (m ((c : Thread nD τ).loc main_arg0)) shapeCasts_S2x2048x1024_S4096x1024 := by
  show StableHlo.after hostOps0 (W0 m ρ c) (Proc.devRef .tc main_v0) = _
  after_results; rfl

theorem V1_v2 : (V1 m ρ c main_v2 : S1024x1024.Idx → EReal)
    = transpose S1024x1024 [1, 0] (m ((c : Thread nD τ).loc main_arg3)) transposes_S1024x1024_S1024x1024_1_0 := by
  show StableHlo.after hostOps0 (W0 m ρ c) (Proc.devRef .tc main_v2) = _
  after_results; rfl

theorem V1_v3 : (V1 m ρ c main_v3 : S1x1024.Idx → EReal)
    = shapeCast S1x1024 (m ((c : Thread nD τ).loc main_arg4)) shapeCasts_S1024_S1x1024 := by
  show StableHlo.after hostOps0 (W0 m ρ c) (Proc.devRef .tc main_v3) = _
  after_results; rfl

/-! ## Region 1's arrays at its entry -/

theorem V3_v6 : (V3 m ρ c main_v6 : S4096x1024.Idx → EReal)
    = shapeCast S4096x1024 (m ((c : Thread nD τ).loc main_arg1)) shapeCasts_S2x2048x1024_S4096x1024 := by
  show StableHlo.after hostOps1 (W2 m ρ c) (Proc.devRef .tc main_v6) = _
  after_results; rw [W2_arg1]; rfl

theorem V3_v8 : (V3 m ρ c main_v8 : S1024x1024.Idx → EReal)
    = transpose S1024x1024 [1, 0] (m ((c : Thread nD τ).loc main_arg5)) transposes_S1024x1024_S1024x1024_1_0 := by
  show StableHlo.after hostOps1 (W2 m ρ c) (Proc.devRef .tc main_v8) = _
  after_results; rw [W2_arg5]; rfl

theorem V3_v9 : (V3 m ρ c main_v9 : S1x1024.Idx → EReal)
    = shapeCast S1x1024 (m ((c : Thread nD τ).loc main_arg6)) shapeCasts_S1024_S1x1024 := by
  show StableHlo.after hostOps1 (W2 m ρ c) (Proc.devRef .tc main_v9) = _
  after_results; rw [W2_arg6]; rfl

/-! ## Region 2's arrays at its entry -/

theorem V5_v12 : (V5 m ρ c main_v12 : S4096x1024.Idx → EReal)
    = shapeCast S4096x1024 (m ((c : Thread nD τ).loc main_arg2)) shapeCasts_S2x2048x1024_S4096x1024 := by
  show StableHlo.after hostOps2 (W4 m ρ c) (Proc.devRef .tc main_v12) = _
  after_results; rw [W4_arg2]; rfl

theorem V5_v14 : (V5 m ρ c main_v14 : S1024x1024.Idx → EReal)
    = transpose S1024x1024 [1, 0] (m ((c : Thread nD τ).loc main_arg7)) transposes_S1024x1024_S1024x1024_1_0 := by
  show StableHlo.after hostOps2 (W4 m ρ c) (Proc.devRef .tc main_v14) = _
  after_results; rw [W4_arg7]; rfl

theorem V5_v15 : (V5 m ρ c main_v15 : S1x1024.Idx → EReal)
    = shapeCast S1x1024 (m ((c : Thread nD τ).loc main_arg8)) shapeCasts_S1024_S1x1024 := by
  show StableHlo.after hostOps2 (W4 m ρ c) (Proc.devRef .tc main_v15) = _
  after_results; rw [W4_arg8]; rfl

/-! ## Region 3's arrays at its entry: the three projections, regarded as [2, 2048, 1024] -/

theorem W3_v5 : (W3 m ρ c (Proc.devRef .tc main_v5) : S2x2048x1024.Idx → EReal)
    = shapeCast S2x2048x1024 (W2 m ρ c (Proc.devRef .tc main_v4)) shapeCasts_S4096x1024_S2x2048x1024 := by
  show StableHlo.after hostOps1 (W2 m ρ c) (Proc.devRef .tc main_v5) = _
  after_results; rfl

theorem V7_v5 : (V7 m ρ c main_v5 : S2x2048x1024.Idx → EReal)
    = shapeCast S2x2048x1024 (W2 m ρ c (Proc.devRef .tc main_v4)) shapeCasts_S4096x1024_S2x2048x1024 := by
  have e1 : W7 m ρ c (Proc.devRef .tc main_v5) = W6 m ρ c (Proc.devRef .tc main_v5) := by skip_host
  have e2 : W6 m ρ c (Proc.devRef .tc main_v5) = W5 m ρ c (Proc.devRef .tc main_v5) := W6_of_ne m ρ c main_v5 (by decide)
  have e3 : W5 m ρ c (Proc.devRef .tc main_v5) = W4 m ρ c (Proc.devRef .tc main_v5) := by skip_host
  have e4 : W4 m ρ c (Proc.devRef .tc main_v5) = W3 m ρ c (Proc.devRef .tc main_v5) := W4_of_ne m ρ c main_v5 (by decide)
  exact (e1.trans (e2.trans (e3.trans e4))).trans (W3_v5 m ρ c)

theorem W5_v11 : (W5 m ρ c (Proc.devRef .tc main_v11) : S2x2048x1024.Idx → EReal)
    = shapeCast S2x2048x1024 (W4 m ρ c (Proc.devRef .tc main_v10)) shapeCasts_S4096x1024_S2x2048x1024 := by
  show StableHlo.after hostOps2 (W4 m ρ c) (Proc.devRef .tc main_v11) = _
  after_results; rfl

theorem V7_v11 : (V7 m ρ c main_v11 : S2x2048x1024.Idx → EReal)
    = shapeCast S2x2048x1024 (W4 m ρ c (Proc.devRef .tc main_v10)) shapeCasts_S4096x1024_S2x2048x1024 := by
  have e1 : W7 m ρ c (Proc.devRef .tc main_v11) = W6 m ρ c (Proc.devRef .tc main_v11) := by skip_host
  have e2 : W6 m ρ c (Proc.devRef .tc main_v11) = W5 m ρ c (Proc.devRef .tc main_v11) := W6_of_ne m ρ c main_v11 (by decide)
  exact (e1.trans e2).trans (W5_v11 m ρ c)

theorem V7_v17 : (V7 m ρ c main_v17 : S2x2048x1024.Idx → EReal)
    = shapeCast S2x2048x1024 (W6 m ρ c (Proc.devRef .tc main_v16)) shapeCasts_S4096x1024_S2x2048x1024 := by
  show StableHlo.after hostOps3 (W6 m ρ c) (Proc.devRef .tc main_v17) = _
  after_results; rfl

/-! ## Region 4's arrays at its entry -/

theorem V9_v19 : (V9 m ρ c main_v19 : S4096x1024.Idx → EReal)
    = shapeCast S4096x1024 (W8 m ρ c (Proc.devRef .tc main_v18)) shapeCasts_S2x2048x1024_S4096x1024 := by
  show StableHlo.after hostOps4 (W8 m ρ c) (Proc.devRef .tc main_v19) = _
  after_results; rfl

theorem V9_v21 : (V9 m ρ c main_v21 : S1024x1024.Idx → EReal)
    = transpose S1024x1024 [1, 0] (m ((c : Thread nD τ).loc main_arg9)) transposes_S1024x1024_S1024x1024_1_0 := by
  show StableHlo.after hostOps4 (W8 m ρ c) (Proc.devRef .tc main_v21) = _
  after_results; rw [W8_arg9]; rfl

theorem V9_v22 : (V9 m ρ c main_v22 : S1x1024.Idx → EReal)
    = shapeCast S1x1024 (m ((c : Thread nD τ).loc main_arg10)) shapeCasts_S1024_S1x1024 := by
  show StableHlo.after hostOps4 (W8 m ρ c) (Proc.devRef .tc main_v22) = _
  after_results; rw [W8_arg10]; rfl

/-! ## The result -/

theorem W11_v24 : (W11 m ρ c (Proc.devRef .tc main_v24) : S2x2048x1024.Idx → EReal)
    = shapeCast S2x2048x1024 (W10 m ρ c (Proc.devRef .tc main_v23)) shapeCasts_S4096x1024_S2x2048x1024 := by
  show StableHlo.after hostOps5 (W10 m ρ c) (Proc.devRef .tc main_v24) = _
  after_results; rfl

end Cert.Walk

end
-- ==== Proof.LibPlainDot.lean ====
/-
  A plain matrix product read at an index, for any extents.

  For the dimension numbers of an `[M, K]` by `[K, N]` product (contract the left operand's columns with the right
  operand's rows, no batch axis), both the kernel's matrix unit accumulating into zero and the host's `dot_general`,
  read at the extended reals at entry `(r, c)`, are the sum over `k` of `lhs (r, k) * rhs (k, c)`.
-/
import Idealize.ShloMosaic.Lib.ValueIdx
import Idealize.ShloMosaic.PureOps.Ideal.Laws

noncomputable section

namespace Cert.Sage

open Idealize.ShloMosaic Idealize.ShloMosaic.ValueIdx

/-- The left operand's row coordinate is the result's row. -/
theorem plain_lhs_row {M K N : ℕ} (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The right operand's column coordinate is the result's column. -/
theorem plain_rhs_col {M K N : ℕ} (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at result entry `(r, c)` and the contraction index carrying `k` is `(r, k)`. -/
theorem plain_lhsIdx {M K N : ℕ} (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  funext a
  refine Fin.ext ?_
  match a with
  | ⟨0, _⟩ => exact plain_lhs_row _ _
  | ⟨1, _⟩ => exact ((DotDims.plain M K N).lhsIdx_val_of_single rfl (ix2 r c) _).trans hk

/-- The right operand's index at result entry `(r, c)` and the contraction index carrying `k` is `(k, c)`. -/
theorem plain_rhsIdx {M K N : ℕ} (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  funext a
  refine Fin.ext ?_
  match a with
  | ⟨0, _⟩ => exact ((DotDims.plain M K N).rhsIdx_val_of_single rfl (ix2 r c) _).trans hk
  | ⟨1, _⟩ => exact plain_rhs_col _ _

/-- The contraction sum of a plain product at entry `(r, c)`, re-indexed by the contracted coordinate. -/
theorem plain_contraction {M K N : ℕ} (lhs : (⟨2, ![M, K]⟩ : Shape).Idx → EReal) (rhs : (⟨2, ![K, N]⟩ : Shape).Idx → EReal)
    (r : Fin M) (c : Fin N) :
    (∑ q : (DotDims.plain M K N).contr.Idx,
        lhs ((DotDims.plain M K N).lhsIdx (ix2 r c) q) * rhs ((DotDims.plain M K N).rhsIdx (ix2 r c) q))
      = ∑ k : Fin K, lhs (ix2 r k) * rhs (ix2 k c) := by
  rw [← Equiv.sum_comp (contrEquiv1 (DotDims.plain M K N) K rfl rfl).symm]
  refine Finset.sum_congr rfl fun k _ => ?_
  rw [plain_lhsIdx, plain_rhsIdx]

/-- The matrix unit accumulating into the zero splat, at entry `(r, c)`. -/
theorem matmul_plain_zero_apply {M K N : ℕ} {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant (F := Ideal) ⟨2, ![M, N]⟩ .f32 0x00000000#32) (ix2 r c)
      = ∑ k : Fin K, lhs (ix2 r k) * rhs (ix2 k c) :=
  (Ideal.matmul_constant_zero_apply (DotDims.plain M K N) prec lhs rhs (ix2 r c)).trans (plain_contraction lhs rhs r c)

/-- The host's `dot_general`, at entry `(r, c)`. -/
theorem dotGeneral_plain_apply {M K N : ℕ} {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  (Ideal.dotGeneral_apply (DotDims.plain M K N) prec sched lhs rhs (ix2 r c)).trans (plain_contraction lhs rhs r c)

end Cert.Sage

end
-- ==== Proof.LinBody.lean ====
/-
  One block of a dense layer, read at an entry.

  The body multiplies a 1024 × 1024 block of rows by a 1024 × 1024 matrix on the matrix unit, into an accumulator of
  zeros, and adds a 1 × 1024 bias row to every row of the product.  Changes of float format are the identity on the
  extended reals, so entry (r, q) of the result is (∑ k, x (r, k) · w (k, q)) + b (0, q).
-/
import proofs.«166252_j2138893713467_2_alg».proof.Proof.Gen.KernelIdeal.Skeleton
import proofs.«166252_j2138893713467_2_alg».proof.Proof.LibPlainDot
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.LinBody

open Idealize.ShloMosaic Idealize.ShloMosaic.ValueIdx Cert.KernelIdeal Cert.KernelIdeal.Gen

/-- Row `r` of `x` against column `q` of `w`, plus entry `q` of the bias row. -/
def linAt (x w : S1024x1024.Idx → EReal) (b : S1x1024.Idx → EReal) (r q : Fin 1024) : EReal :=
  (∑ k : Fin 1024, x (ix2 r k) * w (ix2 k q)) + b (ix2 (0 : Fin 1) q)

/-- The dense block with its result narrowed, at an entry. -/
theorem k0_pay1_apply (x0 : Vec Ideal S1024x1024 .f32) (x1 : Vec Ideal S1024x1024 .bf16) (x2 : Vec Ideal S1x1024 .f32)
    (r q : Fin 1024) : k0_pay1 (F := Ideal) x0 x1 x2 (ix2 r q) = linAt x0 x1 x2 r q := by
  unfold k0_pay1 linAt
  show FloatOps.matmul (DotDims.plain 1024 1024 1024) none
        (truncf .bf16 (shapeCast S1024x1024 x0 shapeCasts_S1024x1024_S1024x1024) bitsLt_bf16_f32)
        (shapeCast S1024x1024 x1 shapeCasts_S1024x1024_S1024x1024)
        (constant (F := Ideal) ⟨2, ![1024, 1024]⟩ .f32 0x00000000#32) (ix2 r q)
      + broadcastTo S1024x1024 (shapeCast S1x1024 x2 shapeCasts_S1x1024_S1x1024) broadcasts_S1x1024_S1024x1024 (ix2 r q) = _
  rw [Cert.Sage.matmul_plain_zero_apply, broadcastTo_1b_ab_apply, shapeCast_self, shapeCast_self, shapeCast_self]
  rfl

theorem k1_pay1_apply (x0 : Vec Ideal S1024x1024 .f32) (x1 : Vec Ideal S1024x1024 .bf16) (x2 : Vec Ideal S1x1024 .f32)
    (r q : Fin 1024) : k1_pay1 (F := Ideal) x0 x1 x2 (ix2 r q) = linAt x0 x1 x2 r q :=
  k0_pay1_apply x0 x1 x2 r q

theorem k2_pay1_apply (x0 : Vec Ideal S1024x1024 .f32) (x1 : Vec Ideal S1024x1024 .bf16) (x2 : Vec Ideal S1x1024 .f32)
    (r q : Fin 1024) : k2_pay1 (F := Ideal) x0 x1 x2 (ix2 r q) = linAt x0 x1 x2 r q :=
  k0_pay1_apply x0 x1 x2 r q

/-- The dense block on narrowed rows with a wide result, at an entry. -/
theorem k4_pay1_apply (x0 x1 : Vec Ideal S1024x1024 .bf16) (x2 : Vec Ideal S1x1024 .f32)
    (r q : Fin 1024) : k4_pay1 (F := Ideal) x0 x1 x2 (ix2 r q) = linAt x0 x1 x2 r q := by
  unfold k4_pay1 linAt
  show FloatOps.matmul (DotDims.plain 1024 1024 1024) none
        (shapeCast S1024x1024 x0 shapeCasts_S1024x1024_S1024x1024)
        (shapeCast S1024x1024 x1 shapeCasts_S1024x1024_S1024x1024)
        (constant (F := Ideal) ⟨2, ![1024, 1024]⟩ .f32 0x00000000#32) (ix2 r q)
      + broadcastTo S1024x1024 (shapeCast S1x1024 x2 shapeCasts_S1x1024_S1x1024) broadcasts_S1x1024_S1024x1024 (ix2 r q) = _
  rw [Cert.Sage.matmul_plain_zero_apply, broadcastTo_1b_ab_apply, shapeCast_self, shapeCast_self, shapeCast_self]

/-- The dense layer over all 4096 rows: row `r` of `x` against column `q` of `w`, plus entry `q` of the bias row. -/
def denseAt (x : S4096x1024.Idx → EReal) (w : S1024x1024.Idx → EReal) (b : S1x1024.Idx → EReal) (r : Fin 4096) (q : Fin 1024) : EReal :=
  (∑ k : Fin 1024, x (ix2 r k) * w (ix2 k q)) + b (ix2 (0 : Fin 1) q)

/-- The dense layer as a whole array. -/
def dense (x : S4096x1024.Idx → EReal) (w : S1024x1024.Idx → EReal) (b : S1x1024.Idx → EReal) : S4096x1024.Idx → EReal :=
  fun i => denseAt x w b (i 0) (i 1)

/-- A block's entry is the whole layer's entry at the block's row, when the block's operands are read from the whole
    arrays there. -/
theorem linAt_eq_denseAt (x w : S1024x1024.Idx → EReal) (b : S1x1024.Idx → EReal)
    (x' : S4096x1024.Idx → EReal) (w' : S1024x1024.Idx → EReal) (b' : S1x1024.Idx → EReal) (r q : Fin 1024) (R : Fin 4096)
    (hx : ∀ k : Fin 1024, x (ix2 r k) = x' (ix2 R k)) (hw : ∀ k : Fin 1024, w (ix2 k q) = w' (ix2 k q))
    (hb : b (ix2 (0 : Fin 1) q) = b' (ix2 (0 : Fin 1) q)) :
    linAt x w b r q = dense x' w' b' (ix2 R q) := by
  show (∑ k : Fin 1024, x (ix2 r k) * w (ix2 k q)) + b (ix2 (0 : Fin 1) q)
    = (∑ k : Fin 1024, x' (ix2 R k) * w' (ix2 k q)) + b' (ix2 (0 : Fin 1) q)
  rw [hb]
  exact congrArg (· + _) (Finset.sum_congr rfl fun k _ => by rw [hx k, hw k])

end Cert.LinBody

end
-- ==== Proof.Lin0.lean ====
/-
  Region 0: a dense layer computed in four blocks of 1024 rows.

  Grid point t reads rows 1024·t … 1024·t + 1023 of the [4096, 1024] input, the whole weight matrix and the whole bias
  row, and writes rows 1024·t … of the output.  Every output row lies in exactly the block of the point r / 1024, so
  the output array after the region is the dense layer of the whole input: entry (r, q) is
  (∑ k, x (r, k) · w (k, q)) + b (0, q), for any contents of the arrays when the region is entered.
-/
import proofs.«166252_j2138893713467_2_alg».proof.Proof.Gen.KernelIdeal.Frame
import proofs.«166252_j2138893713467_2_alg».proof.Proof.LinBody

set_option maxRecDepth 16384

noncomputable section

open scoped BigOperators

namespace Cert.Lin0

open Idealize.ShloMosaic Idealize.ShloMosaic.TcCoe Idealize.ShloMosaic.ValueIdx Idealize.SL.Sem
open Cert.KernelIdeal Cert.KernelIdeal.Gen Cert.LinBody
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: input 0 and the output move with the point along the rows; the weight matrix and the
    bias row stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem lt_four (t : Fin cfg0.N) : t.val < 4 := by
  have h := t.isLt
  have hN : cfg0.N = 4 := N_0
  omega

/-- Row `r` of point `t`'s block, as a row of the array. -/
def row (t : Fin cfg0.N) (r : Fin 1024) : Fin 4096 := ⟨t.val * 1024 + r.val, by have := lt_four t; have := r.isLt; omega⟩

/-- The input block at a point reads the input array at the block's rows. -/
theorem rd0 (c : Dev nD) (t : Fin cfg0.N) (r k : Fin 1024) :
    iblk0 V c 0 t (ix2 r k) = V c main_v0 (ix2 (row t r) k) := by
  obtain ⟨e0, e1, -⟩ := idx_facts t
  show V c main_v0 (((cfg0.win 0).blk t).view.emb (ix2 r k)) = _
  refine congrArg _ ?_
  funext a; apply Fin.ext
  match a with
  | ⟨0, _⟩ => show win0_0.index t (0 : Fin 2) * 1024 + 1 * r.val = t.val * 1024 + r.val; omega
  | ⟨1, _⟩ => show win0_0.index t (1 : Fin 2) * 1024 + 1 * k.val = k.val; omega

/-- The weight block at every point is the whole weight matrix. -/
theorem rd1 (c : Dev nD) (t : Fin cfg0.N) (k q : Fin 1024) :
    iblk0 V c 1 t (ix2 k q) = V c main_v2 (ix2 k q) := by
  obtain ⟨-, -, e2, e3, -⟩ := idx_facts t
  show V c main_v2 (((cfg0.win 1).blk t).view.emb (ix2 k q)) = _
  refine congrArg _ ?_
  funext a; apply Fin.ext
  match a with
  | ⟨0, _⟩ => show win0_1.index t (0 : Fin 2) * 1024 + 1 * k.val = k.val; omega
  | ⟨1, _⟩ => show win0_1.index t (1 : Fin 2) * 1024 + 1 * q.val = q.val; omega

/-- The bias block at every point is the whole bias row. -/
theorem rd2 (c : Dev nD) (t : Fin cfg0.N) (q : Fin 1024) :
    iblk0 V c 2 t (ix2 (0 : Fin 1) q) = V c main_v3 (ix2 (0 : Fin 1) q) := by
  obtain ⟨-, -, -, -, e4, e5, -⟩ := idx_facts t
  show V c main_v3 (((cfg0.win 2).blk t).view.emb (ix2 (0 : Fin 1) q)) = _
  refine congrArg _ ?_
  funext a; apply Fin.ext
  match a with
  | ⟨0, _⟩ => show win0_2.index t (0 : Fin 2) * 1 + 1 * 0 = 0; omega
  | ⟨1, _⟩ => show win0_2.index t (1 : Fin 2) * 1024 + 1 * q.val = q.val; omega

/-- What point `t` writes back is block `t` of the dense layer of the arrays as the region finds them. -/
theorem flushed_eq (c : Dev nD) (t : Fin cfg0.N) :
    (dat0 V c).flushed 3 t = ((cfg0.win 3).blk t).view.read (Elt Ideal)
      (dense (V c main_v0) (V c main_v2) (V c main_v3)) := by
  show (cfg0.win 3).cut (grid0.coords t) ((dat0 V c).after 3 t) = _
  rw [after0_3]
  unfold out0_3
  rw [View.canon_unit_zero hz]
  simp only [View.ld_unit_zero (S := S1024x1024) hz, View.ld_unit_zero (S := S1x1024) hz]
  obtain ⟨-, -, -, -, -, -, e6, e7⟩ := idx_facts t
  funext j
  obtain ⟨r, q, rfl⟩ : ∃ (r q : Fin 1024), j = ix2 r q := ⟨j 0, j 1, eq_ix2 j⟩
  have hemb : ((cfg0.win 3).blk t).view.emb (ix2 r q) = ix2 (row t r) q := by
    funext a; apply Fin.ext
    match a with
    | ⟨0, _⟩ => show win0_3.index t (0 : Fin 2) * 1024 + 1 * r.val = t.val * 1024 + r.val; omega
    | ⟨1, _⟩ => show win0_3.index t (1 : Fin 2) * 1024 + 1 * q.val = q.val; omega
  show k0_pay1 (iblk0 V c 0 t) (iblk0 V c 1 t) (iblk0 V c 2 t) (ix2 r q)
    = dense (V c main_v0) (V c main_v2) (V c main_v3) (((cfg0.win 3).blk t).view.emb (ix2 r q))
  rw [hemb]
  refine (k0_pay1_apply _ _ _ r q).trans ?_
  exact linAt_eq_denseAt (iblk0 V c 0 t) (iblk0 V c 1 t) (iblk0 V c 2 t) (V c main_v0) (V c main_v2) (V c main_v3)
    r q (row t r) (fun k => rd0 V c t r k) (fun k => rd1 V c t k q) (rd2 V c t q)

/-- An index of the output array is in point `t`'s block iff each coordinate is in the block's range. -/
theorem mem_blk (t : Fin cfg0.N) (i : S4096x1024.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v4).slice (win0_3.rect t)).set ↔ _
  rw [View.set_slice_whole, Rect.mem_set_unit]
  exact Iff.rfl

/-- Every output index is in the block of the point its row falls in. -/
theorem cover (i : S4096x1024.Idx) :
    ∃ t : Fin cfg0.N, (cfg0.win 3).flush t = true ∧ i ∈ ((cfg0.win 3).blk t).view.set := by
  have hi0 : (i 0).val < 4096 := (i 0).isLt
  have hi1 : (i 1).val < 1024 := (i 1).isLt
  have hN : cfg0.N = 4 := N_0
  refine ⟨⟨(i 0).val / 1024, by rw [hN]; omega⟩, flush0_3 _, ?_⟩
  rw [mem_blk]
  obtain ⟨-, -, -, -, -, -, e6, e7⟩ := idx_facts ⟨(i 0).val / 1024, by rw [hN]; omega⟩
  intro a
  match a with
  | ⟨0, _⟩ =>
    show win0_3.index _ (0 : Fin 2) * 1024 ≤ (i 0).val ∧ (i 0).val < win0_3.index _ (0 : Fin 2) * 1024 + 1024
    rw [e6]; show (i 0).val / 1024 * 1024 ≤ (i 0).val ∧ (i 0).val < (i 0).val / 1024 * 1024 + 1024; omega
  | ⟨1, _⟩ =>
    show win0_3.index _ (1 : Fin 2) * 1024 ≤ (i 1).val ∧ (i 1).val < win0_3.index _ (1 : Fin 2) * 1024 + 1024
    rw [e7]; omega

/-- The output array after the region: the dense layer of the arrays as the region finds them. -/
theorem final (c : Dev nD) :
    (dat0 V c).arrAt 3 cfg0.N = dense (V c main_v0) (V c main_v2) (V c main_v3) :=
  (dat0 V c).arrAt_eq_of_cover 3 _ (fun t _ => flushed_eq V c t) (cover)

end Cert.Lin0

end
-- ==== Proof.Lin1.lean ====
/-
  Region 1: a dense layer computed in four blocks of 1024 rows.

  Grid point t reads rows 1024·t … 1024·t + 1023 of the [4096, 1024] input, the whole weight matrix and the whole bias
  row, and writes rows 1024·t … of the output.  Every output row lies in exactly the block of the point r / 1024, so
  the output array after the region is the dense layer of the whole input: entry (r, q) is
  (∑ k, x (r, k) · w (k, q)) + b (0, q), for any contents of the arrays when the region is entered.
-/
import proofs.«166252_j2138893713467_2_alg».proof.Proof.Gen.KernelIdeal.Frame
import proofs.«166252_j2138893713467_2_alg».proof.Proof.LinBody

set_option maxRecDepth 16384

noncomputable section

open scoped BigOperators

namespace Cert.Lin1

open Idealize.ShloMosaic Idealize.ShloMosaic.TcCoe Idealize.ShloMosaic.ValueIdx Idealize.SL.Sem
open Cert.KernelIdeal Cert.KernelIdeal.Gen Cert.LinBody
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: input 0 and the output move with the point along the rows; the weight matrix and the
    bias row stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem lt_four (t : Fin cfg1.N) : t.val < 4 := by
  have h := t.isLt
  have hN : cfg1.N = 4 := N_1
  omega

/-- Row `r` of point `t`'s block, as a row of the array. -/
def row (t : Fin cfg1.N) (r : Fin 1024) : Fin 4096 := ⟨t.val * 1024 + r.val, by have := lt_four t; have := r.isLt; omega⟩

/-- The input block at a point reads the input array at the block's rows. -/
theorem rd0 (c : Dev nD) (t : Fin cfg1.N) (r k : Fin 1024) :
    iblk1 V c 0 t (ix2 r k) = V c main_v6 (ix2 (row t r) k) := by
  obtain ⟨e0, e1, -⟩ := idx_facts t
  show V c main_v6 (((cfg1.win 0).blk t).view.emb (ix2 r k)) = _
  refine congrArg _ ?_
  funext a; apply Fin.ext
  match a with
  | ⟨0, _⟩ => show win1_0.index t (0 : Fin 2) * 1024 + 1 * r.val = t.val * 1024 + r.val; omega
  | ⟨1, _⟩ => show win1_0.index t (1 : Fin 2) * 1024 + 1 * k.val = k.val; omega

/-- The weight block at every point is the whole weight matrix. -/
theorem rd1 (c : Dev nD) (t : Fin cfg1.N) (k q : Fin 1024) :
    iblk1 V c 1 t (ix2 k q) = V c main_v8 (ix2 k q) := by
  obtain ⟨-, -, e2, e3, -⟩ := idx_facts t
  show V c main_v8 (((cfg1.win 1).blk t).view.emb (ix2 k q)) = _
  refine congrArg _ ?_
  funext a; apply Fin.ext
  match a with
  | ⟨0, _⟩ => show win1_1.index t (0 : Fin 2) * 1024 + 1 * k.val = k.val; omega
  | ⟨1, _⟩ => show win1_1.index t (1 : Fin 2) * 1024 + 1 * q.val = q.val; omega

/-- The bias block at every point is the whole bias row. -/
theorem rd2 (c : Dev nD) (t : Fin cfg1.N) (q : Fin 1024) :
    iblk1 V c 2 t (ix2 (0 : Fin 1) q) = V c main_v9 (ix2 (0 : Fin 1) q) := by
  obtain ⟨-, -, -, -, e4, e5, -⟩ := idx_facts t
  show V c main_v9 (((cfg1.win 2).blk t).view.emb (ix2 (0 : Fin 1) q)) = _
  refine congrArg _ ?_
  funext a; apply Fin.ext
  match a with
  | ⟨0, _⟩ => show win1_2.index t (0 : Fin 2) * 1 + 1 * 0 = 0; omega
  | ⟨1, _⟩ => show win1_2.index t (1 : Fin 2) * 1024 + 1 * q.val = q.val; omega

/-- What point `t` writes back is block `t` of the dense layer of the arrays as the region finds them. -/
theorem flushed_eq (c : Dev nD) (t : Fin cfg1.N) :
    (dat1 V c).flushed 3 t = ((cfg1.win 3).blk t).view.read (Elt Ideal)
      (dense (V c main_v6) (V c main_v8) (V c main_v9)) := by
  show (cfg1.win 3).cut (grid1.coords t) ((dat1 V c).after 3 t) = _
  rw [after1_3]
  unfold out1_3
  rw [View.canon_unit_zero hz]
  simp only [View.ld_unit_zero (S := S1024x1024) hz, View.ld_unit_zero (S := S1x1024) hz]
  obtain ⟨-, -, -, -, -, -, e6, e7⟩ := idx_facts t
  funext j
  obtain ⟨r, q, rfl⟩ : ∃ (r q : Fin 1024), j = ix2 r q := ⟨j 0, j 1, eq_ix2 j⟩
  have hemb : ((cfg1.win 3).blk t).view.emb (ix2 r q) = ix2 (row t r) q := by
    funext a; apply Fin.ext
    match a with
    | ⟨0, _⟩ => show win1_3.index t (0 : Fin 2) * 1024 + 1 * r.val = t.val * 1024 + r.val; omega
    | ⟨1, _⟩ => show win1_3.index t (1 : Fin 2) * 1024 + 1 * q.val = q.val; omega
  show k1_pay1 (iblk1 V c 0 t) (iblk1 V c 1 t) (iblk1 V c 2 t) (ix2 r q)
    = dense (V c main_v6) (V c main_v8) (V c main_v9) (((cfg1.win 3).blk t).view.emb (ix2 r q))
  rw [hemb]
  refine (k1_pay1_apply _ _ _ r q).trans ?_
  exact linAt_eq_denseAt (iblk1 V c 0 t) (iblk1 V c 1 t) (iblk1 V c 2 t) (V c main_v6) (V c main_v8) (V c main_v9)
    r q (row t r) (fun k => rd0 V c t r k) (fun k => rd1 V c t k q) (rd2 V c t q)

/-- An index of the output array is in point `t`'s block iff each coordinate is in the block's range. -/
theorem mem_blk (t : Fin cfg1.N) (i : S4096x1024.Idx) :
    i ∈ ((cfg1.win 3).blk t).view.set ↔ ∀ a : Fin 2, win1_3.index t a * S1024x1024.size a ≤ (i a).val
      ∧ (i a).val < win1_3.index t a * S1024x1024.size a + S1024x1024.size a := by
  show i ∈ ((View.whole main_v10).slice (win1_3.rect t)).set ↔ _
  rw [View.set_slice_whole, Rect.mem_set_unit]
  exact Iff.rfl

/-- Every output index is in the block of the point its row falls in. -/
theorem cover (i : S4096x1024.Idx) :
    ∃ t : Fin cfg1.N, (cfg1.win 3).flush t = true ∧ i ∈ ((cfg1.win 3).blk t).view.set := by
  have hi0 : (i 0).val < 4096 := (i 0).isLt
  have hi1 : (i 1).val < 1024 := (i 1).isLt
  have hN : cfg1.N = 4 := N_1
  refine ⟨⟨(i 0).val / 1024, by rw [hN]; omega⟩, flush1_3 _, ?_⟩
  rw [mem_blk]
  obtain ⟨-, -, -, -, -, -, e6, e7⟩ := idx_facts ⟨(i 0).val / 1024, by rw [hN]; omega⟩
  intro a
  match a with
  | ⟨0, _⟩ =>
    show win1_3.index _ (0 : Fin 2) * 1024 ≤ (i 0).val ∧ (i 0).val < win1_3.index _ (0 : Fin 2) * 1024 + 1024
    rw [e6]; show (i 0).val / 1024 * 1024 ≤ (i 0).val ∧ (i 0).val < (i 0).val / 1024 * 1024 + 1024; omega
  | ⟨1, _⟩ =>
    show win1_3.index _ (1 : Fin 2) * 1024 ≤ (i 1).val ∧ (i 1).val < win1_3.index _ (1 : Fin 2) * 1024 + 1024
    rw [e7]; omega

/-- The output array after the region: the dense layer of the arrays as the region finds them. -/
theorem final (c : Dev nD) :
    (dat1 V c).arrAt 3 cfg1.N = dense (V c main_v6) (V c main_v8) (V c main_v9) :=
  (dat1 V c).arrAt_eq_of_cover 3 _ (fun t _ => flushed_eq V c t) (cover)

end Cert.Lin1

end
-- ==== Proof.Lin2.lean ====
/-
  Region 2: a dense layer computed in four blocks of 1024 rows.

  Grid point t reads rows 1024·t … 1024·t + 1023 of the [4096, 1024] input, the whole weight matrix and the whole bias
  row, and writes rows 1024·t … of the output.  Every output row lies in exactly the block of the point r / 1024, so
  the output array after the region is the dense layer of the whole input: entry (r, q) is
  (∑ k, x (r, k) · w (k, q)) + b (0, q), for any contents of the arrays when the region is entered.
-/
import proofs.«166252_j2138893713467_2_alg».proof.Proof.Gen.KernelIdeal.Frame
import proofs.«166252_j2138893713467_2_alg».proof.Proof.LinBody

set_option maxRecDepth 16384

noncomputable section

open scoped BigOperators

namespace Cert.Lin2

open Idealize.ShloMosaic Idealize.ShloMosaic.TcCoe Idealize.ShloMosaic.ValueIdx Idealize.SL.Sem
open Cert.KernelIdeal Cert.KernelIdeal.Gen Cert.LinBody
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: input 0 and the output move with the point along the rows; the weight matrix and the
    bias row stay. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

theorem lt_four (t : Fin cfg2.N) : t.val < 4 := by
  have h := t.isLt
  have hN : cfg2.N = 4 := N_2
  omega

/-- Row `r` of point `t`'s block, as a row of the array. -/
def row (t : Fin cfg2.N) (r : Fin 1024) : Fin 4096 := ⟨t.val * 1024 + r.val, by have := lt_four t; have := r.isLt; omega⟩

/-- The input block at a point reads the input array at the block's rows. -/
theorem rd0 (c : Dev nD) (t : Fin cfg2.N) (r k : Fin 1024) :
    iblk2 V c 0 t (ix2 r k) = V c main_v12 (ix2 (row t r) k) := by
  obtain ⟨e0, e1, -⟩ := idx_facts t
  show V c main_v12 (((cfg2.win 0).blk t).view.emb (ix2 r k)) = _
  refine congrArg _ ?_
  funext a; apply Fin.ext
  match a with
  | ⟨0, _⟩ => show win2_0.index t (0 : Fin 2) * 1024 + 1 * r.val = t.val * 1024 + r.val; omega
  | ⟨1, _⟩ => show win2_0.index t (1 : Fin 2) * 1024 + 1 * k.val = k.val; omega

/-- The weight block at every point is the whole weight matrix. -/
theorem rd1 (c : Dev nD) (t : Fin cfg2.N) (k q : Fin 1024) :
    iblk2 V c 1 t (ix2 k q) = V c main_v14 (ix2 k q) := by
  obtain ⟨-, -, e2, e3, -⟩ := idx_facts t
  show V c main_v14 (((cfg2.win 1).blk t).view.emb (ix2 k q)) = _
  refine congrArg _ ?_
  funext a; apply Fin.ext
  match a with
  | ⟨0, _⟩ => show win2_1.index t (0 : Fin 2) * 1024 + 1 * k.val = k.val; omega
  | ⟨1, _⟩ => show win2_1.index t (1 : Fin 2) * 1024 + 1 * q.val = q.val; omega

/-- The bias block at every point is the whole bias row. -/
theorem rd2 (c : Dev nD) (t : Fin cfg2.N) (q : Fin 1024) :
    iblk2 V c 2 t (ix2 (0 : Fin 1) q) = V c main_v15 (ix2 (0 : Fin 1) q) := by
  obtain ⟨-, -, -, -, e4, e5, -⟩ := idx_facts t
  show V c main_v15 (((cfg2.win 2).blk t).view.emb (ix2 (0 : Fin 1) q)) = _
  refine congrArg _ ?_
  funext a; apply Fin.ext
  match a with
  | ⟨0, _⟩ => show win2_2.index t (0 : Fin 2) * 1 + 1 * 0 = 0; omega
  | ⟨1, _⟩ => show win2_2.index t (1 : Fin 2) * 1024 + 1 * q.val = q.val; omega

/-- What point `t` writes back is block `t` of the dense layer of the arrays as the region finds them. -/
theorem flushed_eq (c : Dev nD) (t : Fin cfg2.N) :
    (dat2 V c).flushed 3 t = ((cfg2.win 3).blk t).view.read (Elt Ideal)
      (dense (V c main_v12) (V c main_v14) (V c main_v15)) := by
  show (cfg2.win 3).cut (grid2.coords t) ((dat2 V c).after 3 t) = _
  rw [after2_3]
  unfold out2_3
  rw [View.canon_unit_zero hz]
  simp only [View.ld_unit_zero (S := S1024x1024) hz, View.ld_unit_zero (S := S1x1024) hz]
  obtain ⟨-, -, -, -, -, -, e6, e7⟩ := idx_facts t
  funext j
  obtain ⟨r, q, rfl⟩ : ∃ (r q : Fin 1024), j = ix2 r q := ⟨j 0, j 1, eq_ix2 j⟩
  have hemb : ((cfg2.win 3).blk t).view.emb (ix2 r q) = ix2 (row t r) q := by
    funext a; apply Fin.ext
    match a with
    | ⟨0, _⟩ => show win2_3.index t (0 : Fin 2) * 1024 + 1 * r.val = t.val * 1024 + r.val; omega
    | ⟨1, _⟩ => show win2_3.index t (1 : Fin 2) * 1024 + 1 * q.val = q.val; omega
  show k2_pay1 (iblk2 V c 0 t) (iblk2 V c 1 t) (iblk2 V c 2 t) (ix2 r q)
    = dense (V c main_v12) (V c main_v14) (V c main_v15) (((cfg2.win 3).blk t).view.emb (ix2 r q))
  rw [hemb]
  refine (k2_pay1_apply _ _ _ r q).trans ?_
  exact linAt_eq_denseAt (iblk2 V c 0 t) (iblk2 V c 1 t) (iblk2 V c 2 t) (V c main_v12) (V c main_v14) (V c main_v15)
    r q (row t r) (fun k => rd0 V c t r k) (fun k => rd1 V c t k q) (rd2 V c t q)

/-- An index of the output array is in point `t`'s block iff each coordinate is in the block's range. -/
theorem mem_blk (t : Fin cfg2.N) (i : S4096x1024.Idx) :
    i ∈ ((cfg2.win 3).blk t).view.set ↔ ∀ a : Fin 2, win2_3.index t a * S1024x1024.size a ≤ (i a).val
      ∧ (i a).val < win2_3.index t a * S1024x1024.size a + S1024x1024.size a := by
  show i ∈ ((View.whole main_v16).slice (win2_3.rect t)).set ↔ _
  rw [View.set_slice_whole, Rect.mem_set_unit]
  exact Iff.rfl

/-- Every output index is in the block of the point its row falls in. -/
theorem cover (i : S4096x1024.Idx) :
    ∃ t : Fin cfg2.N, (cfg2.win 3).flush t = true ∧ i ∈ ((cfg2.win 3).blk t).view.set := by
  have hi0 : (i 0).val < 4096 := (i 0).isLt
  have hi1 : (i 1).val < 1024 := (i 1).isLt
  have hN : cfg2.N = 4 := N_2
  refine ⟨⟨(i 0).val / 1024, by rw [hN]; omega⟩, flush2_3 _, ?_⟩
  rw [mem_blk]
  obtain ⟨-, -, -, -, -, -, e6, e7⟩ := idx_facts ⟨(i 0).val / 1024, by rw [hN]; omega⟩
  intro a
  match a with
  | ⟨0, _⟩ =>
    show win2_3.index _ (0 : Fin 2) * 1024 ≤ (i 0).val ∧ (i 0).val < win2_3.index _ (0 : Fin 2) * 1024 + 1024
    rw [e6]; show (i 0).val / 1024 * 1024 ≤ (i 0).val ∧ (i 0).val < (i 0).val / 1024 * 1024 + 1024; omega
  | ⟨1, _⟩ =>
    show win2_3.index _ (1 : Fin 2) * 1024 ≤ (i 1).val ∧ (i 1).val < win2_3.index _ (1 : Fin 2) * 1024 + 1024
    rw [e7]; omega

/-- The output array after the region: the dense layer of the arrays as the region finds them. -/
theorem final (c : Dev nD) :
    (dat2 V c).arrAt 3 cfg2.N = dense (V c main_v12) (V c main_v14) (V c main_v15) :=
  (dat2 V c).arrAt_eq_of_cover 3 _ (fun t _ => flushed_eq V c t) (cover)

end Cert.Lin2

end
-- ==== Proof.Lin4.lean ====
/-
  Region 4: a dense layer computed in four blocks of 1024 rows.

  Grid point t reads rows 1024·t … 1024·t + 1023 of the [4096, 1024] input, the whole weight matrix and the whole bias
  row, and writes rows 1024·t … of the output.  Every output row lies in exactly the block of the point r / 1024, so
  the output array after the region is the dense layer of the whole input: entry (r, q) is
  (∑ k, x (r, k) · w (k, q)) + b (0, q), for any contents of the arrays when the region is entered.
-/
import proofs.«166252_j2138893713467_2_alg».proof.Proof.Gen.KernelIdeal.Frame
import proofs.«166252_j2138893713467_2_alg».proof.Proof.LinBody

set_option maxRecDepth 16384

noncomputable section

open scoped BigOperators

namespace Cert.Lin4

open Idealize.ShloMosaic Idealize.ShloMosaic.TcCoe Idealize.ShloMosaic.ValueIdx Idealize.SL.Sem
open Cert.KernelIdeal Cert.KernelIdeal.Gen Cert.LinBody
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: input 0 and the output move with the point along the rows; the weight matrix and the
    bias row stay. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

theorem lt_four (t : Fin cfg4.N) : t.val < 4 := by
  have h := t.isLt
  have hN : cfg4.N = 4 := N_4
  omega

/-- Row `r` of point `t`'s block, as a row of the array. -/
def row (t : Fin cfg4.N) (r : Fin 1024) : Fin 4096 := ⟨t.val * 1024 + r.val, by have := lt_four t; have := r.isLt; omega⟩

/-- The input block at a point reads the input array at the block's rows. -/
theorem rd0 (c : Dev nD) (t : Fin cfg4.N) (r k : Fin 1024) :
    iblk4 V c 0 t (ix2 r k) = V c main_v19 (ix2 (row t r) k) := by
  obtain ⟨e0, e1, -⟩ := idx_facts t
  show V c main_v19 (((cfg4.win 0).blk t).view.emb (ix2 r k)) = _
  refine congrArg _ ?_
  funext a; apply Fin.ext
  match a with
  | ⟨0, _⟩ => show win4_0.index t (0 : Fin 2) * 1024 + 1 * r.val = t.val * 1024 + r.val; omega
  | ⟨1, _⟩ => show win4_0.index t (1 : Fin 2) * 1024 + 1 * k.val = k.val; omega

/-- The weight block at every point is the whole weight matrix. -/
theorem rd1 (c : Dev nD) (t : Fin cfg4.N) (k q : Fin 1024) :
    iblk4 V c 1 t (ix2 k q) = V c main_v21 (ix2 k q) := by
  obtain ⟨-, -, e2, e3, -⟩ := idx_facts t
  show V c main_v21 (((cfg4.win 1).blk t).view.emb (ix2 k q)) = _
  refine congrArg _ ?_
  funext a; apply Fin.ext
  match a with
  | ⟨0, _⟩ => show win4_1.index t (0 : Fin 2) * 1024 + 1 * k.val = k.val; omega
  | ⟨1, _⟩ => show win4_1.index t (1 : Fin 2) * 1024 + 1 * q.val = q.val; omega

/-- The bias block at every point is the whole bias row. -/
theorem rd2 (c : Dev nD) (t : Fin cfg4.N) (q : Fin 1024) :
    iblk4 V c 2 t (ix2 (0 : Fin 1) q) = V c main_v22 (ix2 (0 : Fin 1) q) := by
  obtain ⟨-, -, -, -, e4, e5, -⟩ := idx_facts t
  show V c main_v22 (((cfg4.win 2).blk t).view.emb (ix2 (0 : Fin 1) q)) = _
  refine congrArg _ ?_
  funext a; apply Fin.ext
  match a with
  | ⟨0, _⟩ => show win4_2.index t (0 : Fin 2) * 1 + 1 * 0 = 0; omega
  | ⟨1, _⟩ => show win4_2.index t (1 : Fin 2) * 1024 + 1 * q.val = q.val; omega

/-- What point `t` writes back is block `t` of the dense layer of the arrays as the region finds them. -/
theorem flushed_eq (c : Dev nD) (t : Fin cfg4.N) :
    (dat4 V c).flushed 3 t = ((cfg4.win 3).blk t).view.read (Elt Ideal)
      (dense (V c main_v19) (V c main_v21) (V c main_v22)) := by
  show (cfg4.win 3).cut (grid4.coords t) ((dat4 V c).after 3 t) = _
  rw [after4_3]
  unfold out4_3
  rw [View.canon_unit_zero hz]
  simp only [View.ld_unit_zero (S := S1024x1024) hz, View.ld_unit_zero (S := S1x1024) hz]
  obtain ⟨-, -, -, -, -, -, e6, e7⟩ := idx_facts t
  funext j
  obtain ⟨r, q, rfl⟩ : ∃ (r q : Fin 1024), j = ix2 r q := ⟨j 0, j 1, eq_ix2 j⟩
  have hemb : ((cfg4.win 3).blk t).view.emb (ix2 r q) = ix2 (row t r) q := by
    funext a; apply Fin.ext
    match a with
    | ⟨0, _⟩ => show win4_3.index t (0 : Fin 2) * 1024 + 1 * r.val = t.val * 1024 + r.val; omega
    | ⟨1, _⟩ => show win4_3.index t (1 : Fin 2) * 1024 + 1 * q.val = q.val; omega
  show k4_pay1 (iblk4 V c 0 t) (iblk4 V c 1 t) (iblk4 V c 2 t) (ix2 r q)
    = dense (V c main_v19) (V c main_v21) (V c main_v22) (((cfg4.win 3).blk t).view.emb (ix2 r q))
  rw [hemb]
  refine (k4_pay1_apply _ _ _ r q).trans ?_
  exact linAt_eq_denseAt (iblk4 V c 0 t) (iblk4 V c 1 t) (iblk4 V c 2 t) (V c main_v19) (V c main_v21) (V c main_v22)
    r q (row t r) (fun k => rd0 V c t r k) (fun k => rd1 V c t k q) (rd2 V c t q)

/-- An index of the output array is in point `t`'s block iff each coordinate is in the block's range. -/
theorem mem_blk (t : Fin cfg4.N) (i : S4096x1024.Idx) :
    i ∈ ((cfg4.win 3).blk t).view.set ↔ ∀ a : Fin 2, win4_3.index t a * S1024x1024.size a ≤ (i a).val
      ∧ (i a).val < win4_3.index t a * S1024x1024.size a + S1024x1024.size a := by
  show i ∈ ((View.whole main_v23).slice (win4_3.rect t)).set ↔ _
  rw [View.set_slice_whole, Rect.mem_set_unit]
  exact Iff.rfl

/-- Every output index is in the block of the point its row falls in. -/
theorem cover (i : S4096x1024.Idx) :
    ∃ t : Fin cfg4.N, (cfg4.win 3).flush t = true ∧ i ∈ ((cfg4.win 3).blk t).view.set := by
  have hi0 : (i 0).val < 4096 := (i 0).isLt
  have hi1 : (i 1).val < 1024 := (i 1).isLt
  have hN : cfg4.N = 4 := N_4
  refine ⟨⟨(i 0).val / 1024, by rw [hN]; omega⟩, flush4_3 _, ?_⟩
  rw [mem_blk]
  obtain ⟨-, -, -, -, -, -, e6, e7⟩ := idx_facts ⟨(i 0).val / 1024, by rw [hN]; omega⟩
  intro a
  match a with
  | ⟨0, _⟩ =>
    show win4_3.index _ (0 : Fin 2) * 1024 ≤ (i 0).val ∧ (i 0).val < win4_3.index _ (0 : Fin 2) * 1024 + 1024
    rw [e6]; show (i 0).val / 1024 * 1024 ≤ (i 0).val ∧ (i 0).val < (i 0).val / 1024 * 1024 + 1024; omega
  | ⟨1, _⟩ =>
    show win4_3.index _ (1 : Fin 2) * 1024 ≤ (i 1).val ∧ (i 1).val < win4_3.index _ (1 : Fin 2) * 1024 + 1024
    rw [e7]; omega

/-- The output array after the region: the dense layer of the arrays as the region finds them. -/
theorem final (c : Dev nD) :
    (dat4 V c).arrAt 3 cfg4.N = dense (V c main_v19) (V c main_v21) (V c main_v22) :=
  (dat4 V c).arrAt_eq_of_cover 3 _ (fun t _ => flushed_eq V c t) (cover)

end Cert.Lin4

end
-- ==== Proof.LibDotLastAxes.lean ====
/-
  A matrix product that contracts the LAST axis of both operands, at the ideal values.

  For `A` of shape [M, K] and `B` of shape [N, K] the product into a zero accumulator has, at row `a` and column `b`,
  the value `∑ c, A (a, c) * B (b, c)`: both operands are read along their rows. With a row vector added to every row
  of the product (a bias of shape [1, N] cast to its own shape and broadcast down the rows) this is one unit of a dense
  layer, `(∑ c, A (a, c) * B (b, c)) + bias (0, b)`.
-/
import Idealize.ShloMosaic.PureOps.Ideal.Laws
import Idealize.ShloMosaic.Lib.ValueIdx
import Idealize.ShloMosaic.Lib.Pipeline.Value

noncomputable section

open scoped BigOperators

namespace Idealize.ShloMosaic.DotLastAxes

open Idealize.ShloMosaic Idealize.ShloMosaic.ValueIdx

variable {M K N : Nat}

/-- The product of an [M, K] by an [N, K] matrix over their last axes, into the zero splat, read at an index: the sum
    over the contracted coordinate of the products of the two rows' entries. -/
theorem matmul_zero_apply {φ₁ φ₂ : FTy}
    (w : DotDims.WF (⟨2, ![M, K]⟩ : Shape) (⟨2, ![N, K]⟩ : Shape) (⟨2, ![M, N]⟩ : Shape) [1] [1] [0] [0] [] [])
    (prec : Option ContractPrecision) (A : FVec Ideal ⟨2, ![M, K]⟩ φ₁) (B : FVec Ideal ⟨2, ![N, K]⟩ φ₂)
    (a : Fin M) (b : Fin N) :
    matmul (⟨[1], [1], [0], [0], [], [], w⟩ : DotDims _ _ _) prec A B (constant (F := Ideal) ⟨2, ![M, N]⟩ .f32 0x00000000#32) (ix2 a b)
      = ∑ c : Fin K, A (ix2 a c) * B (ix2 b c) := by
  show FloatOps.matmul _ prec A B _ (ix2 a b) = _
  rw [Ideal.matmul_constant_zero_apply,
    ← Equiv.sum_comp (contrEquiv1 (⟨[1], [1], [0], [0], [], [], w⟩ : DotDims (⟨2, ![M, K]⟩ : Shape) (⟨2, ![N, K]⟩ : Shape) (⟨2, ![M, N]⟩ : Shape)) K rfl rfl).symm]
  refine Finset.sum_congr rfl fun c _ => ?_
  have c2 := contrEquiv1_symm_val (⟨[1], [1], [0], [0], [], [], w⟩ : DotDims (⟨2, ![M, K]⟩ : Shape) (⟨2, ![N, K]⟩ : Shape) (⟨2, ![M, N]⟩ : Shape)) K rfl rfl c
  have l2 : (⟨[1], [1], [0], [0], [], [], w⟩ : DotDims (⟨2, ![M, K]⟩ : Shape) (⟨2, ![N, K]⟩ : Shape) (⟨2, ![M, N]⟩ : Shape)).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims (⟨2, ![M, K]⟩ : Shape) (⟨2, ![N, K]⟩ : Shape) (⟨2, ![M, N]⟩ : Shape)).rhsIdx (ix2 a b)
      ((contrEquiv1 _ K rfl rfl).symm c) = ix2 b c := by
    funext ax; apply Fin.ext
    match ax with
    | ⟨0, _⟩ => simp [DotDims.rhsIdx]; rfl
    | ⟨1, _⟩ => simp [DotDims.rhsIdx]; exact c2
  rw [l2, r2]

/-- A [1, N] row cast to its own shape and broadcast down M rows reads, at row `a` and column `b`, the row's entry `b`. -/
theorem rowBroadcast_apply {α : Type} (hc : (⟨2, ![1, N]⟩ : Shape).ShapeCasts ⟨2, ![1, N]⟩)
    (hb : (⟨2, ![1, N]⟩ : Shape).Broadcasts ⟨2, ![M, N]⟩) (x : (⟨2, ![1, N]⟩ : Shape).Idx → α) (a : Fin M) (b : Fin N) :
    broadcastTo ⟨2, ![M, N]⟩ (shapeCast ⟨2, ![1, N]⟩ x hc) hb (ix2 a b) = x (ix2 0 b) := by
  rw [shapeCast_self]
  refine broadcastTo_apply x hb (ix2 a b) (ix2 0 b) fun ax => ?_
  match ax with
  | ⟨0, _⟩ => exact (if_pos rfl).symm
  | ⟨1, _⟩ =>
    show (b : ℕ) = if N = 1 then 0 else (b : ℕ)
    split
    · have := b.isLt; omega
    · rfl

end Idealize.ShloMosaic.DotLastAxes

end
-- ==== Proof.LibColumn.lean ====
/-
  A column kept beside an array: the two layout steps of a row-wise reduction with its axis kept.

  A vector of length a regarded as an a × 1 column reads, at (i, u), the vector at i; an a × 1 column broadcast
  across b columns reads, at (p, c), the column at p. Both hold for every a and b (a = 1 and b = 1 included:
  the unit coordinate is then the only one there is). Indices are written with the literal-extent constructors
  ix1, ix2, so that the statements apply by unification to a term written the same way.
-/
import Idealize.ShloMosaic.Lib.Pipeline.Value
import Idealize.ShloMosaic.Lib.ValueIdx

namespace Cert.LibColumn

open Idealize.ShloMosaic Idealize.ShloMosaic.ValueIdx

variable {α : Type}

/-- A vector of length `a` cast to an `a × 1` column reads, at `(i, u)`, the vector at `i`, whatever the unit
    coordinate `u`. Every `a`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at `(p, c)`, the column at `p`. Every `a` and `b`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.LibRowScalars.lean ====
/-
  Reading a block of rows one row at a time, for any number of rows `a` and any row length `b`:

  * the sum along the lanes of an `[a, b]` array, at row `p`, is `∑ k : Fin b` of the entries of row `p`;
  * a vector of `a` entries regarded as an `[a, 1]` column has entry `p` in row `p`;
  * the single entry of a `[1, 1]` array broadcast down an `[a, 1]` column is that entry in every row;
  * the leading `m` columns of an `[a, b]` array, at `(p, k)`, are the array at `(p, k)`;
  * three `[a, 1]` columns laid side by side into `[a, 3]` have, in row `p`, the first column's entry at
    column 0, the second's at column 1, the third's at column 2.

  All hold for every extent `a` (and `b`, `m ≤ b`); the column count of the last one is the literal 3.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.RowScalars

open Idealize.ShloMosaic Idealize.ShloMosaic.ValueIdx

variable {α : Type}

/-- The lane sum of an `[a, b]` array of extended reals at row `p`: the sum of that row's `b` entries. -/
theorem laneSum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src ?_
  funext d
  match d with
  | ⟨0, _⟩ => rfl
  | ⟨1, _⟩ => rfl

/-- A vector of `a` entries cast to an `[a, 1]` column reads, at `(p, u)`, entry `p`. -/
theorem column_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The one entry of a `[1, 1]` array broadcast down an `[a, 1]` column is that entry, in every row. -/
theorem splat11_apply {a : ℕ} (v : (⟨2, ![1, 1]⟩ : Shape).Idx → α) (h : (⟨2, ![1, 1]⟩ : Shape).Broadcasts ⟨2, ![a, 1]⟩)
    (p : Fin a) (u : Fin 1) : broadcastTo ⟨2, ![a, 1]⟩ v h (ix2 p u) = v (ix2 (0 : Fin 1) (0 : Fin 1)) := by
  have hu : u = 0 := Subsingleton.elim _ _
  subst hu
  exact broadcastTo_1b_ab_apply v h p 0

/-- The leading `m` columns of an `[a, b]` array read, at `(p, k)`, the array at `(p, k)`. -/
theorem leadingCols_apply {a b m : ℕ} (X : (⟨2, ![a, b]⟩ : Shape).Idx → α)
    (h : (⟨2, ![a, b]⟩ : Shape).Slices ![0, 0] ⟨2, ![a, m]⟩) (p : Fin a) (k : Fin m) (k' : Fin b) (hk : k'.val = k.val) :
    extractStridedSlice ⟨2, ![a, m]⟩ ![0, 0] X h (ix2 p k) = X (ix2 p k') :=
  slice2_axis1_apply 0 X h p k k' (by rw [hk, Nat.zero_add])

section ThreeColumns

variable {a : ℕ} (x y z : (⟨2, ![a, 1]⟩ : Shape).Idx → α)
  (h : Shape.Concatenates [(⟨2, ![a, 1]⟩ : Shape), ⟨2, ![a, 1]⟩, ⟨2, ![a, 1]⟩] ⟨2, ![a, 3]⟩ 1)

/-- Three columns side by side, read in column 0: the first column. -/
theorem cols3_apply_0 (p : Fin a) :
    concatenate ⟨2, ![a, 3]⟩ 1 [⟨⟨2, ![a, 1]⟩, x⟩, ⟨⟨2, ![a, 1]⟩, y⟩, ⟨⟨2, ![a, 1]⟩, z⟩] h (ix2 p (0 : Fin 3))
      = x (ix2 p (0 : Fin 1)) :=
  concatenate_apply_piece (t := ⟨2, ![a, 3]⟩) (1 : Fin 2) [⟨⟨2, ![a, 1]⟩, x⟩, ⟨⟨2, ![a, 1]⟩, y⟩, ⟨⟨2, ![a, 1]⟩, z⟩] h
    (ix2 p (0 : Fin 3)) 0 (by show 0 < 3; omega) ⟨2, ![a, 1]⟩ x rfl rfl 0 rfl (ix2 p (0 : Fin 1))
    (fun b hb => by
      match b with
      | ⟨0, _⟩ => rfl
      | ⟨1, _⟩ => exact absurd rfl hb)
    rfl

/-- Three columns side by side, read in column 1: the second column. -/
theorem cols3_apply_1 (p : Fin a) :
    concatenate ⟨2, ![a, 3]⟩ 1 [⟨⟨2, ![a, 1]⟩, x⟩, ⟨⟨2, ![a, 1]⟩, y⟩, ⟨⟨2, ![a, 1]⟩, z⟩] h (ix2 p (1 : Fin 3))
      = y (ix2 p (0 : Fin 1)) :=
  concatenate_apply_piece (t := ⟨2, ![a, 3]⟩) (1 : Fin 2) [⟨⟨2, ![a, 1]⟩, x⟩, ⟨⟨2, ![a, 1]⟩, y⟩, ⟨⟨2, ![a, 1]⟩, z⟩] h
    (ix2 p (1 : Fin 3)) 1 (by show 1 < 3; omega) ⟨2, ![a, 1]⟩ y rfl rfl 1 rfl (ix2 p (0 : Fin 1))
    (fun b hb => by
      match b with
      | ⟨0, _⟩ => rfl
      | ⟨1, _⟩ => exact absurd rfl hb)
    rfl

/-- Three columns side by side, read in column 2: the third column. -/
theorem cols3_apply_2 (p : Fin a) :
    concatenate ⟨2, ![a, 3]⟩ 1 [⟨⟨2, ![a, 1]⟩, x⟩, ⟨⟨2, ![a, 1]⟩, y⟩, ⟨⟨2, ![a, 1]⟩, z⟩] h (ix2 p (2 : Fin 3))
      = z (ix2 p (0 : Fin 1)) :=
  concatenate_apply_piece (t := ⟨2, ![a, 3]⟩) (1 : Fin 2) [⟨⟨2, ![a, 1]⟩, x⟩, ⟨⟨2, ![a, 1]⟩, y⟩, ⟨⟨2, ![a, 1]⟩, z⟩] h
    (ix2 p (2 : Fin 3)) 2 (by show 2 < 3; omega) ⟨2, ![a, 1]⟩ z rfl rfl 2 rfl (ix2 p (0 : Fin 1))
    (fun b hb => by
      match b with
      | ⟨0, _⟩ => rfl
      | ⟨1, _⟩ => exact absurd rfl hb)
    rfl

end ThreeColumns

end Cert.RowScalars

end
-- ==== Proof.AttnBody.lean ====
/-
  The attention block of the kernel, read at one index, on the extended reals.

  The block holds 512 query rows, 2048 key rows and 2048 value rows of 128 columns, two heads of 64 columns side by
  side. The query entries are multiplied by a constant; then, for each of the two 64-column halves, a query row is
  scored against every key row by the sum over the half's columns of the products, the row of 2048 scores is shifted by
  its maximum and exponentiated, the weights are divided by their sum, and the value half's column is mixed with those
  probabilities. The two halves' results lie side by side again. So the entry in row r and column c is the mix, with
  the probabilities of the scores of row r within the half that holds c, of column c of the values.
-/
import proofs.«166252_j2138893713467_2_alg».proof.Proof.Gen.KernelIdeal.Skeleton
import proofs.«166252_j2138893713467_2_alg».proof.Proof.Spec
import proofs.«166252_j2138893713467_2_alg».proof.Proof.LibDotLastAxes
import proofs.«166252_j2138893713467_2_alg».proof.Proof.LibPlainDot
import proofs.«166252_j2138893713467_2_alg».proof.Proof.LibColumn
import proofs.«166252_j2138893713467_2_alg».proof.Proof.LibRowScalars
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.AttnBody

open Idealize.ShloMosaic Idealize.ShloMosaic.ValueIdx Cert.KernelIdeal Cert.KernelIdeal.Gen

/-- Column `d` of the 64-column half (of a 128-column block) that holds column `c`. -/
def half (c : Fin 128) (d : Fin 64) : Fin 128 := ⟨64 * (c.val / 64) + d.val, by have := c.isLt; have := d.isLt; omega⟩

/-! ## The scores of one half -/

/-- A [512, 64] by [2048, 64] product over the last axes into the zero array: at (r, j), the sum over the 64 columns
    of the products of row r of the first and row j of the second. -/
theorem scores_apply (xq : FVec Ideal S512x64 .bf16) (xk : FVec Ideal S2048x64 .bf16) (r : Fin 512) (j : Fin 2048) :
    matmul dot_S512x64_S2048x64_S512x2048_1_1_0_0_n_n none xq xk (constant (F := Ideal) S512x2048 .f32 0x00000000#32) (ix2 r j)
      = ∑ d : Fin 64, xq (ix2 r d) * xk (ix2 j d) :=
  Idealize.ShloMosaic.DotLastAxes.matmul_zero_apply (M := 512) (K := 64) (N := 2048)
    Facts₀.dot_S512x64_S2048x64_S512x2048_1_1_0_0_n_n_wf none xq xk r j

/-! ## The rows of probabilities -/

/-- The word of minus infinity denotes the bottom element. -/
theorem negInf_eq_bot : Ideal.ofBits .f32 0xFF800000#32 = (⊥ : EReal) := by
  simp [Ideal.ofBits, Ideal.ieee]

/-- The maximum along the rows of a [512, 2048] array from minus infinity, at row r: the fold of max from the bottom
    element over that row's 2048 entries. -/
theorem rowMax_apply (s : FVec Ideal S512x2048 .f32) (h : S512x2048.Reduces [1] S512) (hφ : FKind.Formats .f32)
    (hacc : (0xFF800000#32 : BitVec 32) = FKind.maximumf.neutral .f32 hφ) (r : Fin 512) :
    multiReduction .maximumf [1] S512 s 0xFF800000#32 h hφ hacc (ix1 r) = Cert.MHA.rowMax (fun j : Fin 2048 => s (ix2 r j)) := by
  refine (Ideal.multiReduction_maximumf_single s 0xFF800000#32 h hφ hacc (ix1 r)).trans ?_
  unfold Cert.MHA.rowMax
  have hb : FloatOps.ofBits (F := Ideal) .f32 0xFF800000#32 = (⊥ : EReal) := negInf_eq_bot
  rw [hb]
  refine congrArg (fun f : Fin 2048 → EReal => (Finset.univ : Finset (Fin 2048)).fold max ⊥ f) ?_
  funext k
  refine congrArg s ?_
  funext d
  match d with
  | ⟨0, _⟩ => rfl
  | ⟨1, _⟩ => rfl

/-- The probabilities of a [512, 2048] array of scores: each row shifted by its maximum and exponentiated, then
    divided by the row's sum (the two row vectors are made columns and spread across the row). -/
def softRows (s : FVec Ideal S512x2048 .f32) : FVec Ideal S512x2048 .bf16 :=
  have m : FVec Ideal S512 .f32 := multiReduction .maximumf [1] S512 s 0xFF800000#32 reduces_S512x2048_S512 (.inl rfl) rfl
  have mc : FVec Ideal S512x1 .f32 := shapeCast S512x1 m shapeCasts_S512_S512x1
  have mb : FVec Ideal S512x2048 .f32 := broadcastTo S512x2048 mc broadcasts_S512x1_S512x2048
  have e : FVec Ideal S512x2048 .f32 := exp (subf s mb)
  have t : FVec Ideal S512 .f32 := multiReduction .add [1] S512 e 0x00000000#32 reduces_S512x2048_S512 (.inl rfl) rfl
  have tc : FVec Ideal S512x1 .f32 := shapeCast S512x1 t shapeCasts_S512_S512x1
  have tb : FVec Ideal S512x2048 .f32 := broadcastTo S512x2048 tc broadcasts_S512x1_S512x2048
  truncf .bf16 (divf e tb) bitsLt_bf16_f32

/-- A row vector of 512 entries made a column and spread across 2048 columns reads, at (r, j), entry r. -/
theorem spread_apply (m : FVec Ideal S512 .f32) (r : Fin 512) (j : Fin 2048) :
    broadcastTo S512x2048 (shapeCast S512x1 m shapeCasts_S512_S512x1) broadcasts_S512x1_S512x2048 (ix2 r j) = m (ix1 r) :=
  (Cert.LibColumn.broadcastTo_a1_ab_apply (a := 512) (b := 2048) _ broadcasts_S512x1_S512x2048 r j).trans
    (Cert.LibColumn.shapeCast_a_a1_apply (a := 512) m shapeCasts_S512_S512x1 r 0)

/-- The shifted and exponentiated score at (r, j) is the weight of key row j in the row of scores r. -/
theorem weights_apply (s : FVec Ideal S512x2048 .f32) (r : Fin 512) (j : Fin 2048) :
    exp (subf s (broadcastTo S512x2048
        (shapeCast S512x1 (multiReduction .maximumf [1] S512 s 0xFF800000#32 reduces_S512x2048_S512 (.inl rfl) rfl)
          shapeCasts_S512_S512x1) broadcasts_S512x1_S512x2048)) (ix2 r j)
      = Cert.MHA.wgt (fun j : Fin 2048 => s (ix2 r j)) j := by
  unfold Cert.MHA.wgt
  refine congrArg (fun z : EReal => Ideal.exp (s (ix2 r j) - z)) ?_
  exact (spread_apply _ r j).trans (rowMax_apply s _ _ _ r)

/-- The probabilities array at (r, j) is the probability of key row j in the row of scores r. -/
theorem softRows_apply (s : FVec Ideal S512x2048 .f32) (r : Fin 512) (j : Fin 2048) :
    softRows s (ix2 r j) = Cert.MHA.prob (fun j : Fin 2048 => s (ix2 r j)) j := by
  unfold Cert.MHA.prob Cert.MHA.den
  refine (congrArg₂ Ideal.div (weights_apply s r j) ?_ : softRows s (ix2 r j) = _)
  refine (spread_apply _ r j).trans ?_
  refine (Cert.RowScalars.laneSum_apply (a := 512) (b := 2048) _ _ _ _ r).trans ?_
  exact Finset.sum_congr rfl fun k _ => weights_apply s r k

/-! ## One half -/

/-- The [512, 64] result of the half that starts at column `o`: the probabilities of the scores of the query half
    against the key half, times the value half. -/
def halfOut (o : ℕ) (hq : S512x128.Slices ![0, o] S512x64) (hk : S2048x128.Slices ![0, o] S2048x64)
    (q : FVec Ideal S512x128 .bf16) (k v : FVec Ideal S2048x128 .bf16) : FVec Ideal S512x64 .f32 :=
  matmul dot_S512x2048_S2048x64_S512x64_1_0_0_1_n_n none
    (softRows (matmul dot_S512x64_S2048x64_S512x2048_1_1_0_0_n_n none
      (extractStridedSlice S512x64 ![0, o] q hq) (extractStridedSlice S2048x64 ![0, o] k hk)
      (constant S512x2048 .f32 0x00000000#32)))
    (extractStridedSlice S2048x64 ![0, o] v hk) (constant S512x64 .f32 0x00000000#32)

/-- A [512, 2048] by [2048, 64] product into the zero array: at (r, d), the sum over the 2048 rows of the second of
    the products with row r of the first. -/
theorem mixes_apply (p : FVec Ideal S512x2048 .bf16) (xv : FVec Ideal S2048x64 .bf16) (r : Fin 512) (d : Fin 64) :
    matmul dot_S512x2048_S2048x64_S512x64_1_0_0_1_n_n none p xv (constant (F := Ideal) S512x64 .f32 0x00000000#32) (ix2 r d)
      = ∑ j : Fin 2048, p (ix2 r j) * xv (ix2 j d) :=
  Cert.Sage.matmul_plain_zero_apply (M := 512) (K := 2048) (N := 64) none p xv r d

/-- The half that starts at column `o`, at (r, d): the mix, with the probabilities of the scores of query row r
    over columns o, …, o + 63, of column o + d of the values. -/
theorem halfOut_apply (o : ℕ) (ho : o + 64 ≤ 128) (hq : S512x128.Slices ![0, o] S512x64)
    (hk : S2048x128.Slices ![0, o] S2048x64) (q : FVec Ideal S512x128 .bf16) (k v : FVec Ideal S2048x128 .bf16)
    (r : Fin 512) (d : Fin 64) :
    halfOut o hq hk q k v (ix2 r d)
      = Cert.MHA.mix
          (fun j : Fin 2048 => ∑ d' : Fin 64,
            q (ix2 r (⟨o + d'.val, by have := d'.isLt; omega⟩ : Fin 128)) * k (ix2 j (⟨o + d'.val, by have := d'.isLt; omega⟩ : Fin 128)))
          (fun j : Fin 2048 => v (ix2 j (⟨o + d.val, by have := d.isLt; omega⟩ : Fin 128))) := by
  unfold halfOut Cert.MHA.mix
  refine (mixes_apply _ _ r d).trans (Finset.sum_congr rfl fun j _ => ?_)
  refine congrArg₂ (· * ·) ((softRows_apply _ r j).trans ?_)
    (slice2_axis1_apply (n0 := 2048) (n1 := 128) (m := 64) o v hk j d _ rfl)
  refine congrArg (fun σ : Fin 2048 → EReal => Cert.MHA.prob σ j) (funext fun j' => ?_)
  refine (scores_apply _ _ r j').trans (Finset.sum_congr rfl fun d' _ => ?_)
  exact congrArg₂ (· * ·) (slice2_axis1_apply (n0 := 512) (n1 := 128) (m := 64) o q hq r d' _ rfl)
    (slice2_axis1_apply (n0 := 2048) (n1 := 128) (m := 64) o k hk j' d' _ rfl)

/-! ## The two halves side by side -/

/-- Two [512, 64] arrays side by side, read in a column of the left one. -/
theorem sideBySide_left (a b : FVec Ideal S512x64 .f32) (r : Fin 512) (c : Fin 128) (d : Fin 64) (hd : d.val = c.val) :
    concatenate S512x128 1 [⟨S512x64, a⟩, ⟨S512x64, b⟩] concatenates_S512x64_S512x64_S512x128_d1 (ix2 r c) = a (ix2 r d) :=
  concatenate_apply_piece (t := S512x128) (1 : Fin 2) [⟨S512x64, a⟩, ⟨S512x64, b⟩] concatenates_S512x64_S512x64_S512x128_d1
    (ix2 r c) 0 (by show 0 < 2; omega) S512x64 a rfl rfl 0 rfl (ix2 r d)
    (fun ax hax => by
      match ax with
      | ⟨0, _⟩ => rfl
      | ⟨1, _⟩ => exact absurd rfl hax)
    (by show 0 + d.val = c.val; omega)

/-- Two [512, 64] arrays side by side, read in a column of the right one. -/
theorem sideBySide_right (a b : FVec Ideal S512x64 .f32) (r : Fin 512) (c : Fin 128) (d : Fin 64) (hd : 64 + d.val = c.val) :
    concatenate S512x128 1 [⟨S512x64, a⟩, ⟨S512x64, b⟩] concatenates_S512x64_S512x64_S512x128_d1 (ix2 r c) = b (ix2 r d) :=
  concatenate_apply_piece (t := S512x128) (1 : Fin 2) [⟨S512x64, a⟩, ⟨S512x64, b⟩] concatenates_S512x64_S512x64_S512x128_d1
    (ix2 r c) 1 (by show 1 < 2; omega) S512x64 b rfl rfl 64 rfl (ix2 r d)
    (fun ax hax => by
      match ax with
      | ⟨0, _⟩ => rfl
      | ⟨1, _⟩ => exact absurd rfl hax)
    hd

/-! ## The block -/

/-- The query block without its unit axis, every entry multiplied by the constant. -/
def scaledQ (x0 : Vec Ideal S1x512x128 .bf16) : FVec Ideal S512x128 .bf16 :=
  mulf (shapeCast S512x128 x0 shapeCasts_S1x512x128_S512x128) (broadcast S512x128 (Scalar.ofBits .bf16 0x3E00#16))

theorem scaledQ_apply (x0 : Vec Ideal S1x512x128 .bf16) (r : Fin 512) (e : Fin 128) :
    scaledQ x0 (ix2 r e) = x0 (ix3 (0 : Fin 1) r e) * Cert.MHA.cK :=
  congrArg (· * Cert.MHA.cK) (shapeCast_1ab_ab_apply (a := 512) (b := 128) x0 shapeCasts_S1x512x128_S512x128 r e)

/-- A key or value block without its unit axis. -/
theorem flat_apply (x : Vec Ideal S1x2048x128 .bf16) (j : Fin 2048) (e : Fin 128) :
    shapeCast S2048x128 x shapeCasts_S1x2048x128_S2048x128 (ix2 j e) = x (ix3 (0 : Fin 1) j e) :=
  shapeCast_1ab_ab_apply (a := 2048) (b := 128) x shapeCasts_S1x2048x128_S2048x128 j e

/-- The body's [512, 128] value is the two halves side by side. -/
theorem pay2_eq (x0 : Vec Ideal S1x512x128 .bf16) (x1 x2 : Vec Ideal S1x2048x128 .bf16) :
    k3_pay2 (F := Ideal) x0 x1 x2
      = concatenate S512x128 1
          [⟨S512x64, halfOut 0 slices_S512x128_o0_0_S512x64 slices_S2048x128_o0_0_S2048x64 (scaledQ x0)
              (shapeCast S2048x128 x1 shapeCasts_S1x2048x128_S2048x128) (shapeCast S2048x128 x2 shapeCasts_S1x2048x128_S2048x128)⟩,
           ⟨S512x64, halfOut 64 slices_S512x128_o0_64_S512x64 slices_S2048x128_o0_64_S2048x64 (scaledQ x0)
              (shapeCast S2048x128 x1 shapeCasts_S1x2048x128_S2048x128) (shapeCast S2048x128 x2 shapeCasts_S1x2048x128_S2048x128)⟩]
          concatenates_S512x64_S512x64_S512x128_d1 := rfl

/-- The half that starts at column o = 64 · (c / 64), read at the column d with o + d = c, in the block's terms. -/
theorem half_of_block (x0 : Vec Ideal S1x512x128 .bf16) (x1 x2 : Vec Ideal S1x2048x128 .bf16) (r : Fin 512) (c : Fin 128)
    (o : ℕ) (ho : o + 64 ≤ 128) (hoc : o = 64 * (c.val / 64)) (d : Fin 64) (hd : o + d.val = c.val)
    (hq : S512x128.Slices ![0, o] S512x64) (hk : S2048x128.Slices ![0, o] S2048x64) :
    halfOut o hq hk (scaledQ x0) (shapeCast S2048x128 x1 shapeCasts_S1x2048x128_S2048x128)
        (shapeCast S2048x128 x2 shapeCasts_S1x2048x128_S2048x128) (ix2 r d)
      = Cert.MHA.mix (fun j : Fin 2048 => ∑ d : Fin 64, (x0 (ix3 (0 : Fin 1) r (half c d)) * Cert.MHA.cK) * x1 (ix3 (0 : Fin 1) j (half c d)))
          (fun j : Fin 2048 => x2 (ix3 (0 : Fin 1) j c)) := by
  refine (halfOut_apply o ho hq hk _ _ _ r d).trans ?_
  refine congrArg₂ Cert.MHA.mix (funext fun j => Finset.sum_congr rfl fun d' _ => ?_) (funext fun j => ?_)
  · have he : (⟨o + d'.val, by have := d'.isLt; omega⟩ : Fin 128) = half c d' :=
      Fin.ext (by show o + d'.val = 64 * (c.val / 64) + d'.val; omega)
    exact congrArg₂ (· * ·)
      ((congrArg (fun e : Fin 128 => scaledQ x0 (ix2 r e)) he).trans (scaledQ_apply x0 r _))
      ((congrArg (fun e : Fin 128 => shapeCast S2048x128 x1 shapeCasts_S1x2048x128_S2048x128 (ix2 j e)) he).trans (flat_apply x1 j _))
  · have he : (⟨o + d.val, by have := d.isLt; omega⟩ : Fin 128) = c := Fin.ext hd
    exact (congrArg (fun e : Fin 128 => shapeCast S2048x128 x2 shapeCasts_S1x2048x128_S2048x128 (ix2 j e)) he).trans (flat_apply x2 j c)

theorem attn_block (x0 : Vec Ideal S1x512x128 .bf16) (x1 x2 : Vec Ideal S1x2048x128 .bf16) (r : Fin 512) (c : Fin 128) :
    k3_pay1 (F := Ideal) (k3_pay2 (F := Ideal) x0 x1 x2) (ix3 (0 : Fin 1) r c)
      = Cert.MHA.mix (fun j : Fin 2048 => ∑ d : Fin 64, (x0 (ix3 (0 : Fin 1) r (half c d)) * Cert.MHA.cK) * x1 (ix3 (0 : Fin 1) j (half c d)))
          (fun j : Fin 2048 => x2 (ix3 (0 : Fin 1) j c)) := by
  have h1 : k3_pay1 (F := Ideal) (k3_pay2 (F := Ideal) x0 x1 x2) (ix3 (0 : Fin 1) r c) = k3_pay2 (F := Ideal) x0 x1 x2 (ix2 r c) :=
    shapeCast_ab_1ab_apply (a := 512) (b := 128) (truncf (F := Ideal) .bf16 (k3_pay2 (F := Ideal) x0 x1 x2) bitsLt_bf16_f32)
      shapeCasts_S512x128_S1x512x128 0 r c
  refine h1.trans ((congrFun (pay2_eq x0 x1 x2) (ix2 r c)).trans ?_)
  have hc128 := c.isLt
  by_cases hc : c.val < 64
  · refine (sideBySide_left _ _ r c ⟨c.val, hc⟩ rfl).trans ?_
    exact half_of_block x0 x1 x2 r c 0 (by omega) (by omega) ⟨c.val, hc⟩ (by show 0 + c.val = c.val; omega) _ _
  · have hc' : c.val - 64 < 64 := by omega
    refine (sideBySide_right _ _ r c ⟨c.val - 64, hc'⟩ (by show 64 + (c.val - 64) = c.val; omega)).trans ?_
    exact half_of_block x0 x1 x2 r c 64 (by omega) (by omega) ⟨c.val - 64, hc'⟩ (by show 64 + (c.val - 64) = c.val; omega) _ _

end Cert.AttnBody

end
-- ==== Proof.AttnRegion.lean ====
/-
  Region 3: attention, computed head pair by head pair and 512 query rows at a time.

  The grid has 2 × 8 × 4 points (batch entry, head pair, block of query rows).  A point reads 512 rows and 128 columns
  of the projected queries, all 2048 rows of the same 128 columns of the projected keys and values of its batch entry,
  and writes the same 512 × 128 piece of the output.  Within the 128 columns the two heads are the two halves of 64
  columns, so column c of a block belongs to the head that holds feature 128·hp + c of the whole array, and that head's
  features are 64·(e / 64) + d with e the feature.  The output pieces tile the [2, 2048, 1024] array, every index lying
  in the piece of exactly one point; so the output array after the region is the attention of the specification, with
  the query scaled before the contraction, of the arrays as the region finds them.
-/
import proofs.«166252_j2138893713467_2_alg».proof.Proof.Gen.KernelIdeal.Frame
import proofs.«166252_j2138893713467_2_alg».proof.Proof.AttnBody

set_option maxRecDepth 16384

noncomputable section

open scoped BigOperators

namespace Cert.AttnRegion

open Idealize.ShloMosaic Idealize.ShloMosaic.TcCoe Idealize.ShloMosaic.ValueIdx Idealize.SL.Sem
open Cert.KernelIdeal Cert.KernelIdeal.Gen Cert.AttnBody Cert.MHA
open Idealize.ShloMosaic.Pipeline (Dat)

variable (V : (c : Dev nD) → (b : Ref sig .tc) → Buf (Elt Ideal) ((c : Thread nD τ).loc b))

theorem hz : (![0, 0, 0] : Fin 3 → Nat) = fun _ => 0 := funext fun a => by fin_cases a <;> rfl

/-- A block's entry is the whole attention's entry at the block's place, when the block's operands are read from the
    whole arrays there. -/
theorem mix_block_eq (x0 : S1x512x128.Idx → EReal) (x1 x2 : S1x2048x128.Idx → EReal) (Q K U : A3.Idx → EReal)
    (r : Fin 512) (c' : Fin 128) (n : Fin 2) (s : Fin 2048) (e : Fin 1024)
    (hq : ∀ d : Fin 64, x0 (ix3 (0 : Fin 1) r (half c' d)) = Q (ix3 n s (feat e d)))
    (hk : ∀ (j : Fin 2048) (d : Fin 64), x1 (ix3 (0 : Fin 1) j (half c' d)) = K (ix3 n j (feat e d)))
    (hv : ∀ j : Fin 2048, x2 (ix3 (0 : Fin 1) j c') = U (ix3 n j e)) :
    mix (fun j : Fin 2048 => ∑ d : Fin 64, (x0 (ix3 (0 : Fin 1) r (half c' d)) * cK) * x1 (ix3 (0 : Fin 1) j (half c' d)))
        (fun j : Fin 2048 => x2 (ix3 (0 : Fin 1) j c'))
      = attn (scoreK cK Q K) U (ix3 n s e) := by
  show _ = mix (scoreK cK Q K n s e) (fun j => U (ix3 n j e))
  refine congrArg₂ mix (funext fun j => ?_) (funext hv)
  show _ = ∑ d : Fin 64, (Q (ix3 n s (feat e d)) * cK) * K (ix3 n j (feat e d))
  exact Finset.sum_congr rfl fun d _ => by rw [hq d, hk j d]

/-- The index maps over the grid: the query block and the output piece sit at the same place; the key and value blocks
    share its batch entry and columns and start at row 0. -/
theorem idx_facts : ∀ t : Fin cfg3.N,
    win3_0.index t (0 : Fin 3) = win3_3.index t (0 : Fin 3) ∧ win3_0.index t (1 : Fin 3) = win3_3.index t (1 : Fin 3)
    ∧ win3_0.index t (2 : Fin 3) = win3_3.index t (2 : Fin 3)
    ∧ win3_1.index t (0 : Fin 3) = win3_3.index t (0 : Fin 3) ∧ win3_1.index t (1 : Fin 3) = 0
    ∧ win3_1.index t (2 : Fin 3) = win3_3.index t (2 : Fin 3)
    ∧ win3_2.index t (0 : Fin 3) = win3_3.index t (0 : Fin 3) ∧ win3_2.index t (1 : Fin 3) = 0
    ∧ win3_2.index t (2 : Fin 3) = win3_3.index t (2 : Fin 3)
    ∧ win3_3.index t (0 : Fin 3) ≤ 1 ∧ win3_3.index t (1 : Fin 3) ≤ 3 ∧ win3_3.index t (2 : Fin 3) ≤ 7 :=
  (by decide +kernel : ∀ t : Fin grid3.N, _)

/-- Every piece of the output is some point's. -/
theorem idx_onto : ∀ (q0 : Fin 2) (q1 : Fin 4) (q2 : Fin 8), ∃ t : Fin cfg3.N, win3_3.index t = ![q0.val, q1.val, q2.val] :=
  (by decide +kernel : ∀ (q0 : Fin 2) (q1 : Fin 4) (q2 : Fin 8), ∃ t : Fin grid3.N, win3_3.index t = ![q0.val, q1.val, q2.val])

/-- The place of a point's output piece: batch entry, first row, first column. -/
def pn (t : Fin cfg3.N) : Fin 2 := ⟨win3_3.index t (0 : Fin 3), by have := (idx_facts t).2.2.2.2.2.2.2.2.2.1; omega⟩
def ps (t : Fin cfg3.N) (r : Fin 512) : Fin 2048 :=
  ⟨win3_3.index t (1 : Fin 3) * 512 + r.val, by have := (idx_facts t).2.2.2.2.2.2.2.2.2.2.1; have := r.isLt; omega⟩
def pe (t : Fin cfg3.N) (c' : Fin 128) : Fin 1024 :=
  ⟨win3_3.index t (2 : Fin 3) * 128 + c'.val, by have := (idx_facts t).2.2.2.2.2.2.2.2.2.2.2; have := c'.isLt; omega⟩

/-- A column of the same head, inside the block and in the whole array. -/
theorem pe_half (t : Fin cfg3.N) (c' : Fin 128) (d : Fin 64) : pe t (half c' d) = feat (pe t c') d := Fin.ext (by
  show win3_3.index t (2 : Fin 3) * 128 + (64 * (c'.val / 64) + d.val) = 64 * ((win3_3.index t (2 : Fin 3) * 128 + c'.val) / 64) + d.val
  have := c'.isLt
  omega)

/-- The query block at a point reads the projected queries at the block's place. -/
theorem rd0 (c : Dev nD) (t : Fin cfg3.N) (r : Fin 512) (c' : Fin 128) :
    iblk3 V c 0 t (ix3 (0 : Fin 1) r c') = V c main_v5 (ix3 (pn t) (ps t r) (pe t c')) := by
  obtain ⟨e0, e1, e2, -⟩ := idx_facts t
  show V c main_v5 (((cfg3.win 0).blk t).view.emb (ix3 (0 : Fin 1) r c')) = _
  refine congrArg _ ?_
  funext a; apply Fin.ext
  match a with
  | ⟨0, _⟩ => show win3_0.index t (0 : Fin 3) * 1 + 1 * 0 = win3_3.index t (0 : Fin 3); omega
  | ⟨1, _⟩ => show win3_0.index t (1 : Fin 3) * 512 + 1 * r.val = win3_3.index t (1 : Fin 3) * 512 + r.val; omega
  | ⟨2, _⟩ => show win3_0.index t (2 : Fin 3) * 128 + 1 * c'.val = win3_3.index t (2 : Fin 3) * 128 + c'.val; omega

/-- The key block at a point reads all rows of the projected keys at the block's batch entry and columns. -/
theorem rd1 (c : Dev nD) (t : Fin cfg3.N) (j : Fin 2048) (c' : Fin 128) :
    iblk3 V c 1 t (ix3 (0 : Fin 1) j c') = V c main_v11 (ix3 (pn t) j (pe t c')) := by
  obtain ⟨-, -, -, e3, e4, e5, -⟩ := idx_facts t
  show V c main_v11 (((cfg3.win 1).blk t).view.emb (ix3 (0 : Fin 1) j c')) = _
  refine congrArg _ ?_
  funext a; apply Fin.ext
  match a with
  | ⟨0, _⟩ => show win3_1.index t (0 : Fin 3) * 1 + 1 * 0 = win3_3.index t (0 : Fin 3); omega
  | ⟨1, _⟩ => show win3_1.index t (1 : Fin 3) * 2048 + 1 * j.val = j.val; omega
  | ⟨2, _⟩ => show win3_1.index t (2 : Fin 3) * 128 + 1 * c'.val = win3_3.index t (2 : Fin 3) * 128 + c'.val; omega

/-- The value block likewise. -/
theorem rd2 (c : Dev nD) (t : Fin cfg3.N) (j : Fin 2048) (c' : Fin 128) :
    iblk3 V c 2 t (ix3 (0 : Fin 1) j c') = V c main_v17 (ix3 (pn t) j (pe t c')) := by
  obtain ⟨-, -, -, -, -, -, e6, e7, e8, -⟩ := idx_facts t
  show V c main_v17 (((cfg3.win 2).blk t).view.emb (ix3 (0 : Fin 1) j c')) = _
  refine congrArg _ ?_
  funext a; apply Fin.ext
  match a with
  | ⟨0, _⟩ => show win3_2.index t (0 : Fin 3) * 1 + 1 * 0 = win3_3.index t (0 : Fin 3); omega
  | ⟨1, _⟩ => show win3_2.index t (1 : Fin 3) * 2048 + 1 * j.val = j.val; omega
  | ⟨2, _⟩ => show win3_2.index t (2 : Fin 3) * 128 + 1 * c'.val = win3_3.index t (2 : Fin 3) * 128 + c'.val; omega

/-- What point `t` writes back is piece `t` of the attention of the arrays as the region finds them. -/
theorem flushed_eq (c : Dev nD) (t : Fin cfg3.N) :
    (dat3 V c).flushed 3 t = ((cfg3.win 3).blk t).view.read (Elt Ideal)
      (attn (scoreK cK (V c main_v5) (V c main_v11)) (V c main_v17)) := by
  show (cfg3.win 3).cut (grid3.coords t) ((dat3 V c).after 3 t) = _
  rw [after3_3]
  unfold out3_3
  rw [View.canon_unit_zero hz]
  simp only [View.ld_unit_zero (S := S1x512x128) hz, View.ld_unit_zero (S := S1x2048x128) hz]
  funext j
  obtain ⟨u, r, c', rfl⟩ : ∃ (u : Fin 1) (r : Fin 512) (c' : Fin 128), j = ix3 u r c' := ⟨j 0, j 1, j 2, eq_ix3 j⟩
  obtain rfl : u = 0 := Subsingleton.elim _ _
  have hemb : ((cfg3.win 3).blk t).view.emb (ix3 (0 : Fin 1) r c') = ix3 (pn t) (ps t r) (pe t c') := by
    funext a; apply Fin.ext
    match a with
    | ⟨0, _⟩ => show win3_3.index t (0 : Fin 3) * 1 + 1 * 0 = win3_3.index t (0 : Fin 3); omega
    | ⟨1, _⟩ => show win3_3.index t (1 : Fin 3) * 512 + 1 * r.val = win3_3.index t (1 : Fin 3) * 512 + r.val; omega
    | ⟨2, _⟩ => show win3_3.index t (2 : Fin 3) * 128 + 1 * c'.val = win3_3.index t (2 : Fin 3) * 128 + c'.val; omega
  show k3_pay1 (k3_pay2 (iblk3 V c 0 t) (iblk3 V c 1 t) (iblk3 V c 2 t)) (ix3 (0 : Fin 1) r c')
    = attn (scoreK cK (V c main_v5) (V c main_v11)) (V c main_v17) (((cfg3.win 3).blk t).view.emb (ix3 (0 : Fin 1) r c'))
  rw [hemb]
  refine (attn_block _ _ _ r c').trans ?_
  exact mix_block_eq (iblk3 V c 0 t) (iblk3 V c 1 t) (iblk3 V c 2 t) (V c main_v5) (V c main_v11) (V c main_v17)
    r c' (pn t) (ps t r) (pe t c')
    (fun d => (rd0 V c t r (half c' d)).trans (congrArg (fun e => V c main_v5 (ix3 (pn t) (ps t r) e)) (pe_half t c' d)))
    (fun j d => (rd1 V c t j (half c' d)).trans (congrArg (fun e => V c main_v11 (ix3 (pn t) j e)) (pe_half t c' d)))
    (fun j => rd2 V c t j c')

/-- An index of the output array is in point `t`'s piece iff each coordinate is in the piece's range. -/
theorem mem_blk (t : Fin cfg3.N) (i : S2x2048x1024.Idx) :
    i ∈ ((cfg3.win 3).blk t).view.set ↔ ∀ a : Fin 3, win3_3.index t a * S1x512x128.size a ≤ (i a).val
      ∧ (i a).val < win3_3.index t a * S1x512x128.size a + S1x512x128.size a := by
  show i ∈ ((View.whole main_v18).slice (win3_3.rect t)).set ↔ _
  rw [View.set_slice_whole, Rect.mem_set_unit]
  exact Iff.rfl

/-- Every output index is in the piece of the point of its batch entry, row block and column block. -/
theorem cover (i : S2x2048x1024.Idx) :
    ∃ t : Fin cfg3.N, (cfg3.win 3).flush t = true ∧ i ∈ ((cfg3.win 3).blk t).view.set := by
  have hi0 : (i 0).val < 2 := (i 0).isLt
  have hi1 : (i 1).val < 2048 := (i 1).isLt
  have hi2 : (i 2).val < 1024 := (i 2).isLt
  obtain ⟨t, ht⟩ := idx_onto ⟨(i 0).val, hi0⟩ ⟨(i 1).val / 512, by omega⟩ ⟨(i 2).val / 128, by omega⟩
  have q0 : win3_3.index t (0 : Fin 3) = (i 0).val := congrFun ht 0
  have q1 : win3_3.index t (1 : Fin 3) = (i 1).val / 512 := congrFun ht 1
  have q2 : win3_3.index t (2 : Fin 3) = (i 2).val / 128 := congrFun ht 2
  refine ⟨t, flush3_3 t, ?_⟩
  rw [mem_blk]
  intro a
  match a with
  | ⟨0, _⟩ => show win3_3.index t (0 : Fin 3) * 1 ≤ (i 0).val ∧ (i 0).val < win3_3.index t (0 : Fin 3) * 1 + 1; omega
  | ⟨1, _⟩ => show win3_3.index t (1 : Fin 3) * 512 ≤ (i 1).val ∧ (i 1).val < win3_3.index t (1 : Fin 3) * 512 + 512; omega
  | ⟨2, _⟩ => show win3_3.index t (2 : Fin 3) * 128 ≤ (i 2).val ∧ (i 2).val < win3_3.index t (2 : Fin 3) * 128 + 128; omega

/-- The output array after the region: the attention of the arrays as the region finds them. -/
theorem final (c : Dev nD) :
    (dat3 V c).arrAt 3 cfg3.N = attn (scoreK cK (V c main_v5) (V c main_v11)) (V c main_v17) :=
  (dat3 V c).arrAt_eq_of_cover 3 _ (fun t _ => flushed_eq V c t) (cover)

end Cert.AttnRegion

end
-- ==== Proof.LibLayoutHost.lean ====
import Idealize.ShloMosaic.Lib.Pipeline.Value
import Idealize.ShloMosaic.Lib.ValueIdx

/-!
# A reshape that splits or merges the two leading axes, read at an index

A matrix `[m, c]` with `m = a * b` rows and an array `[a, b, c]` hold the same entries in the same
row-major order: row `r = b * n + s` of the matrix is row `s` of slab `n` of the array.  So the reshape of
the matrix to the array, read at `(n, s, d)`, is the matrix at `(b * n + s, d)`; and the reshape of the array
to the matrix, read at `(r, d)`, is the array at `(n, s, d)` whenever `r = b * n + s` — in particular at
`n = r / b`, `s = r % b`.  Both are the general statement "a reshape read at an index is the operand at the
index with the same row-major position", with the two positions `r * c + d` and `(n * b + s) * c + d`
written out.  The caller names the other index and gives the one equation between the rows; any extents,
any element type.
-/

namespace Cert.LibLayoutHost

open Idealize.ShloMosaic
open Idealize.ShloMosaic.ValueIdx

variable {α : Type}

/-- Row `s` of slab `n` is below `a * b`: the row `b * n + s` of the merged matrix exists. -/
theorem split_row_lt {a b : ℕ} (n : Fin a) (s : Fin b) : b * n.val + s.val < a * b :=
  calc b * n.val + s.val < b * n.val + b := Nat.add_lt_add_left s.isLt _
    _ = b * (n.val + 1) := (Nat.mul_succ b n.val).symm
    _ ≤ b * a := Nat.mul_le_mul_left b n.isLt
    _ = a * b := Nat.mul_comm b a

/-- A matrix `[m, c]` reshaped to `[a, b, c]` reads, at `(n, s, d)`, the matrix at `(r, d)` with
    `r = b * n + s`. -/
theorem shapeCast_mc_abc_apply {m a b c : ℕ} (x : (⟨2, ![m, c]⟩ : Shape).Idx → α)
    (h : (⟨2, ![m, c]⟩ : Shape).ShapeCasts ⟨3, ![a, b, c]⟩) (n : Fin a) (s : Fin b) (d : Fin c)
    (r : Fin m) (hr : r.val = b * n.val + s.val) :
    shapeCast ⟨3, ![a, b, c]⟩ x h (ix3 n s d) = x (ix2 r d) :=
  shapeCast_apply x h _ _ (by
    rw [Shape.rowMajor_val_two, Shape.rowMajor_val_three]
    show r.val * c + d.val = (n.val * b + s.val) * c + d.val
    rw [hr, Nat.mul_comm b n.val])

/-- An array `[a, b, c]` reshaped to a matrix `[m, c]` reads, at `(r, d)`, the array at `(n, s, d)` with
    `r = b * n + s`. -/
theorem shapeCast_abc_mc_apply {a b c m : ℕ} (x : (⟨3, ![a, b, c]⟩ : Shape).Idx → α)
    (h : (⟨3, ![a, b, c]⟩ : Shape).ShapeCasts ⟨2, ![m, c]⟩) (r : Fin m) (d : Fin c)
    (n : Fin a) (s : Fin b) (hr : r.val = b * n.val + s.val) :
    shapeCast ⟨2, ![m, c]⟩ x h (ix2 r d) = x (ix3 n s d) :=
  shapeCast_apply x h _ _ (by
    rw [Shape.rowMajor_val_two, Shape.rowMajor_val_three]
    show (n.val * b + s.val) * c + d.val = r.val * c + d.val
    rw [hr, Nat.mul_comm b n.val])

/-- The split with the matrix row written out, for a matrix of exactly `a * b` rows. -/
theorem shapeCast_mc_abc_eq {a b c : ℕ} (x : (⟨2, ![a * b, c]⟩ : Shape).Idx → α)
    (h : (⟨2, ![a * b, c]⟩ : Shape).ShapeCasts ⟨3, ![a, b, c]⟩) (n : Fin a) (s : Fin b) (d : Fin c) :
    shapeCast ⟨3, ![a, b, c]⟩ x h (ix3 n s d) = x (ix2 ⟨b * n.val + s.val, split_row_lt n s⟩ d) :=
  shapeCast_mc_abc_apply x h n s d _ rfl

/-- The merge with the slab and the row within it written out, `r / b` and `r % b`, for a matrix of
    exactly `a * b` rows. -/
theorem shapeCast_abc_mc_eq {a b c : ℕ} (x : (⟨3, ![a, b, c]⟩ : Shape).Idx → α)
    (h : (⟨3, ![a, b, c]⟩ : Shape).ShapeCasts ⟨2, ![a * b, c]⟩) (r : Fin (a * b)) (d : Fin c)
    (hb : 0 < b) :
    shapeCast ⟨2, ![a * b, c]⟩ x h (ix2 r d)
      = x (ix3 ⟨r.val / b, (Nat.div_lt_iff_lt_mul hb).2 r.isLt⟩ ⟨r.val % b, Nat.mod_lt _ hb⟩ d) :=
  shapeCast_abc_mc_apply x h r d _ _ (Nat.div_add_mod r.val b).symm

end Cert.LibLayoutHost
-- ==== Proof.Flat.lean ====
/-
  A dense layer on flattened rows is the dense layer of the specification.

  The kernels see a [2, 2048, 1024] array as 4096 rows of 1024 entries (row 2048·n + s is row s of batch entry n), the
  weight matrix transposed, and the bias vector as one row.  Entry (r, q) of the flat layer is
  (∑ k, x (r, k) · wᵀ (k, q)) + b (0, q); regarded as [2, 2048, 1024] again and read at (n, s, e) this is
  (∑ d, x (n, s, d) · w (e, d)) + b e, the layer x·Wᵀ + b.
-/
import proofs.«166252_j2138893713467_2_alg».proof.Proof.LinBody
import proofs.«166252_j2138893713467_2_alg».proof.Proof.Spec
import proofs.«166252_j2138893713467_2_alg».proof.Proof.LibLayoutHost
import Idealize.ShloMosaic.Lib.ValueLayout

noncomputable section

open scoped BigOperators

namespace Cert.Flat

open Idealize.ShloMosaic Idealize.ShloMosaic.ValueIdx Cert.KernelIdeal Cert.KernelIdeal.Gen Cert.LinBody Cert.MHA Cert.LibLayoutHost

/-- A vector regarded as one row: entry (0, q) is entry q. -/
theorem rowCast_apply (b : B1.Idx → EReal) (q : Fin 1024) :
    shapeCast S1x1024 b shapeCasts_S1024_S1x1024 (ix2 (0 : Fin 1) q) = b (ix1 q) :=
  shapeCast_apply b shapeCasts_S1024_S1x1024 _ _ (by
    rw [Shape.rowMajor_val_two, Shape.rowMajor_val_one]
    show q.val = 0 * 1024 + q.val
    omega)

/-- The flat row of (n, s). -/
def flatRow (n : Fin 2) (s : Fin 2048) : Fin 4096 := ⟨2048 * n.val + s.val, by have := n.isLt; have := s.isLt; omega⟩

/-- The dense layer on flattened rows with the weight transposed and the bias as one row, regarded as
    [2, 2048, 1024], is x·Wᵀ + b. -/
theorem dense_flat (x : A3.Idx → EReal) (w : W2.Idx → EReal) (b : B1.Idx → EReal) :
    shapeCast S2x2048x1024
        (dense (shapeCast S4096x1024 x shapeCasts_S2x2048x1024_S4096x1024)
          (transpose S1024x1024 [1, 0] w transposes_S1024x1024_S1024x1024_1_0)
          (shapeCast S1x1024 b shapeCasts_S1024_S1x1024))
        shapeCasts_S4096x1024_S2x2048x1024
      = proj x w b := by
  funext i
  obtain ⟨n, s, e, rfl⟩ : ∃ (n : Fin 2) (s : Fin 2048) (e : Fin 1024), i = ix3 n s e := ⟨i 0, i 1, i 2, eq_ix3 i⟩
  refine (shapeCast_mc_abc_apply _ shapeCasts_S4096x1024_S2x2048x1024 n s e (flatRow n s) rfl).trans ?_
  show (∑ k : Fin 1024, shapeCast S4096x1024 x shapeCasts_S2x2048x1024_S4096x1024 (ix2 (flatRow n s) k)
          * transpose S1024x1024 [1, 0] w transposes_S1024x1024_S1024x1024_1_0 (ix2 k e))
        + shapeCast S1x1024 b shapeCasts_S1024_S1x1024 (ix2 (0 : Fin 1) e)
      = (∑ d : Fin 1024, x (ix3 n s d) * w (ix2 e d)) + b (ix1 e)
  rw [rowCast_apply]
  refine congrArg (· + _) (Finset.sum_congr rfl fun k _ => ?_)
  rw [shapeCast_abc_mc_apply x shapeCasts_S2x2048x1024_S4096x1024 (flatRow n s) k n s rfl, transpose_ix2_apply]

end Cert.Flat

end
-- ==== Proof.KValue.lean ====
/-
  The idealized kernel's result is the specification's multi-head attention with the query scaled first.

  Walking the result buffer back through the program: it is the last dense layer's output regarded as
  [2, 2048, 1024]; that layer reads the attention region's output flattened; the attention region reads the three
  projections regarded as [2, 2048, 1024]; and each projection is a dense layer of an argument array flattened, with
  its weight matrix transposed and its bias vector as one row.  Each dense layer on flattened rows is x·Wᵀ + b, so the
  result is the specification's function of the eleven arguments.
-/
import proofs.«166252_j2138893713467_2_alg».proof.Proof.Walk
import proofs.«166252_j2138893713467_2_alg».proof.Proof.Lin0
import proofs.«166252_j2138893713467_2_alg».proof.Proof.Lin1
import proofs.«166252_j2138893713467_2_alg».proof.Proof.Lin2
import proofs.«166252_j2138893713467_2_alg».proof.Proof.Lin4
import proofs.«166252_j2138893713467_2_alg».proof.Proof.AttnRegion
import proofs.«166252_j2138893713467_2_alg».proof.Proof.Flat

set_option maxRecDepth 16384

noncomputable section

namespace Cert.KValue

open Idealize.ShloMosaic Idealize.ShloMosaic.TcCoe Idealize.SL.Sem
open Cert.KernelIdeal Cert.KernelIdeal.Gen Cert.LinBody Cert.MHA Cert.Walk Cert.Flat

variable (m : (ℓ : Loc nD τ sig) → Buf (Elt Ideal) ℓ) (ρ : Dev nD → PrngReg) (c : Dev nD)

/-! ## The regions' outputs at their exits -/

theorem W2_v4 : (W2 m ρ c (Proc.devRef .tc main_v4) : S4096x1024.Idx → EReal)
    = dense (V1 m ρ c main_v0) (V1 m ρ c main_v2) (V1 m ρ c main_v3) :=
  (W2_arr m ρ c 3).trans (Cert.Lin0.final (V1 m ρ) c)

theorem W4_v10 : (W4 m ρ c (Proc.devRef .tc main_v10) : S4096x1024.Idx → EReal)
    = dense (V3 m ρ c main_v6) (V3 m ρ c main_v8) (V3 m ρ c main_v9) :=
  (W4_arr m ρ c 3).trans (Cert.Lin1.final (V3 m ρ) c)

theorem W6_v16 : (W6 m ρ c (Proc.devRef .tc main_v16) : S4096x1024.Idx → EReal)
    = dense (V5 m ρ c main_v12) (V5 m ρ c main_v14) (V5 m ρ c main_v15) :=
  (W6_arr m ρ c 3).trans (Cert.Lin2.final (V5 m ρ) c)

theorem W8_v18 : (W8 m ρ c (Proc.devRef .tc main_v18) : S2x2048x1024.Idx → EReal)
    = attn (scoreK cK (V7 m ρ c main_v5) (V7 m ρ c main_v11)) (V7 m ρ c main_v17) :=
  (W8_arr m ρ c 3).trans (Cert.AttnRegion.final (V7 m ρ) c)

theorem W10_v23 : (W10 m ρ c (Proc.devRef .tc main_v23) : S4096x1024.Idx → EReal)
    = dense (V9 m ρ c main_v19) (V9 m ρ c main_v21) (V9 m ρ c main_v22) :=
  (W10_arr m ρ c 3).trans (Cert.Lin4.final (V9 m ρ) c)

/-! ## The three projections as the attention region finds them -/

theorem qp : (V7 m ρ c main_v5 : S2x2048x1024.Idx → EReal) = proj (m ((c : Thread nD τ).loc main_arg0)) (m ((c : Thread nD τ).loc main_arg3)) (m ((c : Thread nD τ).loc main_arg4)) := by
  rw [V7_v5, W2_v4, V1_v0, V1_v2, V1_v3]
  exact dense_flat _ _ _

theorem kp : (V7 m ρ c main_v11 : S2x2048x1024.Idx → EReal) = proj (m ((c : Thread nD τ).loc main_arg1)) (m ((c : Thread nD τ).loc main_arg5)) (m ((c : Thread nD τ).loc main_arg6)) := by
  rw [V7_v11, W4_v10, V3_v6, V3_v8, V3_v9]
  exact dense_flat _ _ _

theorem vp : (V7 m ρ c main_v17 : S2x2048x1024.Idx → EReal) = proj (m ((c : Thread nD τ).loc main_arg2)) (m ((c : Thread nD τ).loc main_arg7)) (m ((c : Thread nD τ).loc main_arg8)) := by
  rw [V7_v17, W6_v16, V5_v12, V5_v14, V5_v15]
  exact dense_flat _ _ _

/-! ## The result -/

/-- The result buffer after the run holds the specification's function of the eleven argument arrays. -/
theorem result : (W11 m ρ c (Proc.devRef .tc main_v24) : S2x2048x1024.Idx → EReal)
    = outK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [W11_v24, W10_v23, V9_v19, V9_v21, V9_v22, W8_v18, qp, kp, vp]
  exact dense_flat _ _ _

end Cert.KValue

end
-- ==== Proof.RefValue.lean ====
/-
  The reference program, read stage by stage at an index, is the specification's multi-head attention with the
  contraction of each score divided by the constant afterwards.

  A dense layer's stage at (n, s, e) is the sum over the 1024 input features plus the bias entry.  The reshape to
  sixteen heads of 64 features followed by the transpose reads the flat array at feature 64·h + d.  Within batch
  entry n and head h, the row of scores of query row s is the contraction over the head's 64 features divided by the
  square root of 64; its reduce by maximum from −∞ is the fold of max from the bottom element, and taking the maximum
  with −∞ once more changes nothing; the exponentials of the shifted scores are the weights, their reduce by addition
  from 0 is the sum of the weights, and the quotients are the probabilities.  The contraction of the probabilities
  with the value rows, transposed and reshaped back, reads head e / 64 at position e % 64, which is feature e again.
  The last dense layer closes the chain.
-/
import proofs.«166252_j2138893713467_2_alg».proof.Proof.Gen.ReferenceIdeal.Read
import proofs.«166252_j2138893713467_2_alg».proof.Proof.Spec
import Idealize.ShloMosaic.Lib.ValueIdx
import Idealize.ShloMosaic.Lib.Pipeline.Value
import Idealize.ShloMosaic.PureOps.Ideal.Laws
import Idealize.ShloMosaic.PureOps.Reduce

noncomputable section

open scoped BigOperators

namespace Cert.RefValue

open Idealize.ShloMosaic Idealize.ShloMosaic.ValueIdx Cert.ReferenceIdeal Cert.ReferenceIdeal.Read Cert.MHA

/-- The three-dimensional arrays, the weight matrices and the bias vectors of the reference program. -/
abbrev T3 := (⟨S2x2048x1024, .f32⟩ : BufTy).Contents (Elt Ideal)
abbrev T2 := (⟨S1024x1024, .f32⟩ : BufTy).Contents (Elt Ideal)
abbrev T1 := (⟨S1024, .f32⟩ : BufTy).Contents (Elt Ideal)

/-! ## A dense layer read at an index -/

/-- The contraction over the 1024 input features plus the bias entry is the dense layer of the specification. -/
theorem dense_core (x : T3) (w : T2) (b : T1) (n : Fin 2) (s : Fin 2048) (e : Fin 1024) :
    (∑ k : Fin 1024, x (lidx_main_v0 (ix3 n s e) k) * w (ridx_main_v0 (ix3 n s e) k))
        + b (idx_main_v1 (idx_main_v2 (ix3 n s e))) = projAt x w b n s e := by
  unfold projAt
  refine congrArg₂ (· + ·) (Finset.sum_congr rfl fun k _ => congrArg₂ (· * ·) (congrArg x ?_) (congrArg w ?_)) (congrArg b ?_)
  · funext a; match a with | ⟨0, _⟩ => rfl | ⟨1, _⟩ => rfl | ⟨2, _⟩ => rfl
  · funext a; match a with | ⟨0, _⟩ => rfl | ⟨1, _⟩ => rfl
  · funext a; match a with | ⟨0, _⟩ => rfl

theorem v3_eq (x0 : T3) (x3 : T2) (x4 : T1) : val_main_v3 (F := Ideal) x0 x3 x4 = proj x0 x3 x4 := by
  funext i
  obtain ⟨n, s, e, rfl⟩ : ∃ (n : Fin 2) (s : Fin 2048) (e : Fin 1024), i = ix3 n s e := ⟨i 0, i 1, i 2, eq_ix3 i⟩
  rw [val_main_v3_apply, val_main_v0_apply, val_main_v2_apply, val_main_v1_apply]
  exact dense_core x0 x3 x4 n s e

theorem v9_eq (x1 : T3) (x5 : T2) (x6 : T1) : val_main_v9 (F := Ideal) x1 x5 x6 = proj x1 x5 x6 := by
  funext i
  obtain ⟨n, s, e, rfl⟩ : ∃ (n : Fin 2) (s : Fin 2048) (e : Fin 1024), i = ix3 n s e := ⟨i 0, i 1, i 2, eq_ix3 i⟩
  rw [val_main_v9_apply, val_main_v6_apply, val_main_v8_apply, val_main_v7_apply]
  exact dense_core x1 x5 x6 n s e

theorem v15_eq (x2 : T3) (x7 : T2) (x8 : T1) : val_main_v15 (F := Ideal) x2 x7 x8 = proj x2 x7 x8 := by
  funext i
  obtain ⟨n, s, e, rfl⟩ : ∃ (n : Fin 2) (s : Fin 2048) (e : Fin 1024), i = ix3 n s e := ⟨i 0, i 1, i 2, eq_ix3 i⟩
  rw [val_main_v15_apply, val_main_v12_apply, val_main_v14_apply, val_main_v13_apply]
  exact dense_core x2 x7 x8 n s e

/-! ## The split into heads -/

/-- Feature 64·h + d, the d-th feature of head h. -/
def hf (h : Fin 16) (d : Fin 64) : Fin 1024 := ⟨64 * h.val + d.val, by have := h.isLt; have := d.isLt; omega⟩

/-- Reading the array of heads at (n, h, s, d) reads the flat array at (n, s, 64·h + d). -/
theorem head_idx (n : Fin 2) (h : Fin 16) (s : Fin 2048) (d : Fin 64) :
    idx_main_v4 (idx_main_v5 (ix4 n h s d)) = ix3 n s (hf h d) := by
  have hn := n.isLt; have hh := h.isLt; have hs := s.isLt; have hd := d.isLt
  funext a; refine Fin.ext ?_
  match a with
  | ⟨0, _⟩ => show (((n.val * 2048 + s.val) * 16 + h.val) * 64 + d.val) / 2097152 = n.val; omega
  | ⟨1, _⟩ => show (((n.val * 2048 + s.val) * 16 + h.val) * 64 + d.val) / 1024 % 2048 = s.val; omega
  | ⟨2, _⟩ => show (((n.val * 2048 + s.val) * 16 + h.val) * 64 + d.val) % 1024 = 64 * h.val + d.val; omega

theorem v5_eq (x0 : T3) (x3 : T2) (x4 : T1) (n : Fin 2) (h : Fin 16) (s : Fin 2048) (d : Fin 64) :
    val_main_v5 (F := Ideal) x0 x3 x4 (ix4 n h s d) = proj x0 x3 x4 (ix3 n s (hf h d)) := by
  rw [val_main_v5_apply, val_main_v4_apply, v3_eq]
  exact congrArg _ (head_idx n h s d)

theorem v11_eq (x1 : T3) (x5 : T2) (x6 : T1) (n : Fin 2) (h : Fin 16) (s : Fin 2048) (d : Fin 64) :
    val_main_v11 (F := Ideal) x1 x5 x6 (ix4 n h s d) = proj x1 x5 x6 (ix3 n s (hf h d)) := by
  rw [val_main_v11_apply, val_main_v10_apply, v9_eq]
  exact congrArg _ (head_idx n h s d)

theorem v17_eq (x2 : T3) (x7 : T2) (x8 : T1) (n : Fin 2) (h : Fin 16) (s : Fin 2048) (d : Fin 64) :
    val_main_v17 (F := Ideal) x2 x7 x8 (ix4 n h s d) = proj x2 x7 x8 (ix3 n s (hf h d)) := by
  rw [val_main_v17_apply, val_main_v16_apply, v15_eq]
  exact congrArg _ (head_idx n h s d)

/-- The head that holds feature e. -/
def hd (e : Fin 1024) : Fin 16 := ⟨e.val / 64, by have := e.isLt; omega⟩

theorem hf_hd (e : Fin 1024) (d : Fin 64) : hf (hd e) d = feat e d := rfl

/-! ## The scores -/

theorem v21_eq (x0 x1 : T3) (x3 : T2) (x4 : T1) (x5 : T2) (x6 : T1) (n : Fin 2) (h : Fin 16) (s j : Fin 2048) :
    val_main_v21 (F := Ideal) x0 x1 x3 x4 x5 x6 (ix4 n h s j)
      = Ideal.div (∑ d : Fin 64, proj x0 x3 x4 (ix3 n s (hf h d)) * proj x1 x5 x6 (ix3 n j (hf h d))) rR := by
  rw [val_main_v21_apply, val_main_v18_apply, val_main_v20_apply, val_main_v19_apply, val_main_cst_apply]
  simp only [Ideal.hostDivf_def, Ideal.hostUnary_sqrt_def, Ideal.ofBits_def]
  refine congrArg₂ Ideal.div (Finset.sum_congr rfl fun d _ => congrArg₂ (· * ·) ?_ ?_) rfl
  · exact v5_eq x0 x3 x4 n h s d
  · exact v11_eq x1 x5 x6 n h j d

/-- The row of scores of query row s in head h of batch entry n, as the reference program computes it. -/
def row (x0 x1 : T3) (x3 : T2) (x4 : T1) (x5 : T2) (x6 : T1) (n : Fin 2) (h : Fin 16) (s : Fin 2048) : Fin 2048 → EReal :=
  fun j => val_main_v21 (F := Ideal) x0 x1 x3 x4 x5 x6 (ix4 n h s j)

/-- In the head of feature e it is the specification's row of scores, the contraction divided afterwards. -/
theorem row_eq (x0 x1 : T3) (x3 : T2) (x4 : T1) (x5 : T2) (x6 : T1) (n : Fin 2) (s : Fin 2048) (e : Fin 1024) :
    row x0 x1 x3 x4 x5 x6 n (hd e) s = scoreR rR (proj x0 x3 x4) (proj x1 x5 x6) n s e := by
  funext j
  exact v21_eq x0 x1 x3 x4 x5 x6 n (hd e) s j

/-! ## The softmax of a row -/

/-- The f32 word 0xFF800000 is −∞. -/
theorem negInf_eq : Ideal.ofBits .f32 0xFF800000#32 = (⊥ : EReal) := by
  simp [Ideal.ofBits, Ideal.ieee]

/-- The f32 word 0 is 0. -/
theorem zero_eq : Ideal.ofBits .f32 0x00000000#32 = (0 : EReal) := by
  simp [Ideal.ofBits, Ideal.ieee]

/-- The reduced index (n, h, s) with coordinate k put back on the last axis is (n, h, s, k). -/
theorem lift_ix3 (hr : S2x16x2048x2048.Reduces [3] S2x16x2048) (n : Fin 2) (h : Fin 16) (s : Fin 2048)
    (k : Fin (S2x16x2048x2048.size 3)) : hr.lift (ix3 n h s) k = ix4 n h s (⟨k.val, k.isLt⟩ : Fin 2048) := by
  funext c; apply Fin.ext
  fin_cases c <;> rfl

/-- The reduce by maximum from −∞ over the last axis is the maximum of the row. -/
theorem v22_eq (x0 x1 : T3) (x3 : T2) (x4 : T1) (x5 : T2) (x6 : T1) (n : Fin 2) (h : Fin 16) (s : Fin 2048) :
    val_main_v22 (F := Ideal) x0 x1 x3 x4 x5 x6 (ix3 n h s) = rowMax (row x0 x1 x3 x4 x5 x6 n h s) := by
  have hr : S2x16x2048x2048.Reduces [3] S2x16x2048 := by decide
  unfold val_main_v22 rowMax
  rw [Host.reduce_eq_fold_single FloatOps.maximumf _ _ _ hr]
  have hb : val_main_cst_0 (F := Ideal) (Shape.Idx.first Facts₀.h_S_) = (⊥ : EReal) := by
    rw [val_main_cst_0_apply]; exact negInf_eq
  have hf : (val_main_v21 (F := Ideal) x0 x1 x3 x4 x5 x6 ∘ hr.lift (ix3 n h s)) = row x0 x1 x3 x4 x5 x6 n h s :=
    funext fun k => congrArg (val_main_v21 (F := Ideal) x0 x1 x3 x4 x5 x6) (lift_ix3 hr n h s k)
  rw [hb, hf]
  rfl

theorem v24_eq (x0 x1 : T3) (x3 : T2) (x4 : T1) (x5 : T2) (x6 : T1) (n : Fin 2) (h : Fin 16) (s : Fin 2048) :
    val_main_v24 (F := Ideal) x0 x1 x3 x4 x5 x6 (ix3 n h s) = rowMax (row x0 x1 x3 x4 x5 x6 n h s) := by
  rw [val_main_v24_apply, val_main_v23_apply, val_main_cst_1_apply, v22_eq]
  simp only [Ideal.maximumf_def, Ideal.ofBits_def]
  rw [negInf_eq]
  exact bot_sup_eq _

/-- The maximum broadcast back along the row. -/
theorem v26_eq (x0 x1 : T3) (x3 : T2) (x4 : T1) (x5 : T2) (x6 : T1) (n : Fin 2) (h : Fin 16) (s j : Fin 2048) :
    val_main_v26 (F := Ideal) x0 x1 x3 x4 x5 x6 (ix4 n h s j) = rowMax (row x0 x1 x3 x4 x5 x6 n h s) := by
  rw [val_main_v26_apply, val_main_v25_apply]
  refine Eq.trans (congrArg _ ?_) (v24_eq x0 x1 x3 x4 x5 x6 n h s)
  funext a; match a with | ⟨0, _⟩ => rfl | ⟨1, _⟩ => rfl | ⟨2, _⟩ => rfl

/-- The exponential of the shifted score is the unnormalised weight. -/
theorem v28_eq (x0 x1 : T3) (x3 : T2) (x4 : T1) (x5 : T2) (x6 : T1) (n : Fin 2) (h : Fin 16) (s j : Fin 2048) :
    val_main_v28 (F := Ideal) x0 x1 x3 x4 x5 x6 (ix4 n h s j) = wgt (row x0 x1 x3 x4 x5 x6 n h s) j := by
  rw [val_main_v28_apply, val_main_v27_apply, v26_eq]
  rfl

/-- The reduce by addition from 0 over the last axis is the sum of the weights. -/
theorem v29_eq (x0 x1 : T3) (x3 : T2) (x4 : T1) (x5 : T2) (x6 : T1) (n : Fin 2) (h : Fin 16) (s : Fin 2048) :
    val_main_v29 (F := Ideal) x0 x1 x3 x4 x5 x6 (ix3 n h s) = den (row x0 x1 x3 x4 x5 x6 n h s) := by
  rw [val_main_v29_apply, val_main_cst_2_apply]
  simp only [Ideal.ofBits_def]
  rw [zero_eq, zero_add]
  unfold den
  refine Finset.sum_congr rfl fun k _ => ?_
  refine Eq.trans (congrArg _ ?_) (v28_eq x0 x1 x3 x4 x5 x6 n h s k)
  funext a; match a with | ⟨0, _⟩ => rfl | ⟨1, _⟩ => rfl | ⟨2, _⟩ => rfl | ⟨3, _⟩ => rfl

/-- The sum broadcast back along the row. -/
theorem v31_eq (x0 x1 : T3) (x3 : T2) (x4 : T1) (x5 : T2) (x6 : T1) (n : Fin 2) (h : Fin 16) (s j : Fin 2048) :
    val_main_v31 (F := Ideal) x0 x1 x3 x4 x5 x6 (ix4 n h s j) = den (row x0 x1 x3 x4 x5 x6 n h s) := by
  rw [val_main_v31_apply, val_main_v30_apply]
  refine Eq.trans (congrArg _ ?_) (v29_eq x0 x1 x3 x4 x5 x6 n h s)
  funext a; match a with | ⟨0, _⟩ => rfl | ⟨1, _⟩ => rfl | ⟨2, _⟩ => rfl

/-- The weight divided by the sum is the probability. -/
theorem v32_eq (x0 x1 : T3) (x3 : T2) (x4 : T1) (x5 : T2) (x6 : T1) (n : Fin 2) (h : Fin 16) (s j : Fin 2048) :
    val_main_v32 (F := Ideal) x0 x1 x3 x4 x5 x6 (ix4 n h s j) = prob (row x0 x1 x3 x4 x5 x6 n h s) j := by
  rw [val_main_v32_apply, v28_eq, v31_eq]
  rfl

/-! ## The value rows mixed with the probabilities -/

theorem v33_eq (x0 x1 x2 : T3) (x3 : T2) (x4 : T1) (x5 : T2) (x6 : T1) (x7 : T2) (x8 : T1)
    (n : Fin 2) (h : Fin 16) (s : Fin 2048) (d : Fin 64) :
    val_main_v33 (F := Ideal) x0 x1 x2 x3 x4 x5 x6 x7 x8 (ix4 n h s d)
      = mix (row x0 x1 x3 x4 x5 x6 n h s) (fun j => proj x2 x7 x8 (ix3 n j (hf h d))) := by
  rw [val_main_v33_apply]
  unfold mix
  refine Finset.sum_congr rfl fun k _ => congrArg₂ (· * ·) ?_ ?_
  · refine Eq.trans (congrArg _ ?_) (v32_eq x0 x1 x3 x4 x5 x6 n h s k)
    funext a; match a with | ⟨0, _⟩ => rfl | ⟨1, _⟩ => rfl | ⟨2, _⟩ => rfl | ⟨3, _⟩ => rfl
  · refine Eq.trans (congrArg _ ?_) (v17_eq x2 x7 x8 n h k d)
    funext a; match a with | ⟨0, _⟩ => rfl | ⟨1, _⟩ => rfl | ⟨2, _⟩ => rfl | ⟨3, _⟩ => rfl

/-- Position e % 64 within the head of feature e. -/
def pd (e : Fin 1024) : Fin 64 := ⟨e.val % 64, Nat.mod_lt _ (by decide)⟩

theorem hf_hd_pd (e : Fin 1024) : hf (hd e) (pd e) = e := Fin.ext (by
  show 64 * (e.val / 64) + e.val % 64 = e.val
  omega)

/-- Reading the flat array at (n, s, e) reads the array of heads at (n, e / 64, s, e % 64). -/
theorem merge_idx (n : Fin 2) (s : Fin 2048) (e : Fin 1024) :
    idx_main_v34 (idx_main_v35 (ix3 n s e)) = ix4 n (hd e) s (pd e) := by
  have hn := n.isLt; have hs := s.isLt; have he := e.isLt
  funext a; refine Fin.ext ?_
  match a with
  | ⟨0, _⟩ => show ((n.val * 2048 + s.val) * 1024 + e.val) / 2097152 = n.val; omega
  | ⟨1, _⟩ => show ((n.val * 2048 + s.val) * 1024 + e.val) / 64 % 16 = e.val / 64; omega
  | ⟨2, _⟩ => show ((n.val * 2048 + s.val) * 1024 + e.val) / 1024 % 2048 = s.val; omega
  | ⟨3, _⟩ => show ((n.val * 2048 + s.val) * 1024 + e.val) % 64 = e.val % 64; omega

/-- The heads merged back are the attention output of the specification. -/
theorem v35_eq (x0 x1 x2 : T3) (x3 : T2) (x4 : T1) (x5 : T2) (x6 : T1) (x7 : T2) (x8 : T1) :
    val_main_v35 (F := Ideal) x0 x1 x2 x3 x4 x5 x6 x7 x8
      = attn (scoreR rR (proj x0 x3 x4) (proj x1 x5 x6)) (proj x2 x7 x8) := by
  funext i
  obtain ⟨n, s, e, rfl⟩ : ∃ (n : Fin 2) (s : Fin 2048) (e : Fin 1024), i = ix3 n s e := ⟨i 0, i 1, i 2, eq_ix3 i⟩
  rw [val_main_v35_apply, val_main_v34_apply, merge_idx, v33_eq, hf_hd_pd, row_eq]
  rfl

/-! ## The last dense layer -/

theorem ref_eq (x0 x1 x2 : (⟨S2x2048x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal)) (x9 : (⟨S1024x1024, .f32⟩ : BufTy).Contents (Elt Ideal)) (x10 : (⟨S1024, .f32⟩ : BufTy).Contents (Elt Ideal)) :
    Cert.ReferenceIdeal.Read.val_main_v39 (F := Ideal) x0 x1 x2 x3 x4 x5 x6 x7 x8 x9 x10 = Cert.MHA.outR x0 x1 x2 x3 x4 x5 x6 x7 x8 x9 x10 := by
  funext i
  obtain ⟨n, s, e, rfl⟩ : ∃ (n : Fin 2) (s : Fin 2048) (e : Fin 1024), i = ix3 n s e := ⟨i 0, i 1, i 2, eq_ix3 i⟩
  rw [val_main_v39_apply, val_main_v36_apply, val_main_v38_apply, val_main_v37_apply, v35_eq]
  exact dense_core _ x9 x10 n s e

end Cert.RefValue

end
-- ==== Proof.lean ====
/-
  Multi-head attention with dense input and output projections: a five-region kernel program against a plain array
  program, equal on the extended reals.

  Both programs project the queries, keys and values by x·Wᵀ + b, split the 1024 features into sixteen heads of 64,
  score every query row against every key row of its head, turn each row of scores into probabilities (shift by the
  row maximum, exponentiate, divide by the sum), mix the value rows with them, and project the merged heads once
  more.  The kernel program does the four dense layers in blocks of 1024 flattened rows and the attention in pieces of
  512 query rows by two heads; the array program does each step on whole arrays.  Changes of float format are the
  identity on the extended reals, and a contraction is the same sum however it is tiled, so the one real difference is
  where the factor 1/8 sits: the kernel multiplies the query's entries by 0.125 before the contraction, the array
  program divides the contraction by √64 afterwards.  A nonnegative real factor distributes over any sum of extended
  reals and division by the real 8 is multiplication by 1/8, so the scores agree without any finiteness assumption,
  and with them the whole functions.

  The three frames are the programs' runs with the results forgotten; the idealized kernel is the kernel's own text
  read on the extended reals (nothing was rewritten), so the preservation conjunct is trivial.
-/
import proofs.«166252_j2138893713467_2_alg».proof.Defs
import proofs.«166252_j2138893713467_2_alg».proof.Proof.Gen.Kernel
import proofs.«166252_j2138893713467_2_alg».proof.Proof.Gen.Kernel.Skeleton
import proofs.«166252_j2138893713467_2_alg».proof.Proof.Gen.Kernel.Launch
import proofs.«166252_j2138893713467_2_alg».proof.Proof.Gen.Kernel.Points
import proofs.«166252_j2138893713467_2_alg».proof.Proof.Gen.Kernel.Frame
import proofs.«166252_j2138893713467_2_alg».proof.Proof.Gen.KernelIdeal
import proofs.«166252_j2138893713467_2_alg».proof.Proof.Gen.KernelIdeal.Skeleton
import proofs.«166252_j2138893713467_2_alg».proof.Proof.Gen.KernelIdeal.Launch
import proofs.«166252_j2138893713467_2_alg».proof.Proof.Gen.KernelIdeal.Points
import proofs.«166252_j2138893713467_2_alg».proof.Proof.Gen.KernelIdeal.Frame
import proofs.«166252_j2138893713467_2_alg».proof.Proof.Gen.ReferenceIdeal
import proofs.«166252_j2138893713467_2_alg».proof.Proof.Gen.Pre_finite_inputs
import proofs.«166252_j2138893713467_2_alg».proof.Proof.Gen.ReferenceIdeal.Run
import proofs.«166252_j2138893713467_2_alg».proof.Proof.Gen.ReferenceIdeal.Read
import proofs.«166252_j2138893713467_2_alg».proof.Proof.Spec
import proofs.«166252_j2138893713467_2_alg».proof.Proof.KRun
import proofs.«166252_j2138893713467_2_alg».proof.Proof.KValue
import proofs.«166252_j2138893713467_2_alg».proof.Proof.RefValue
import Idealize.ShloMosaic.Adequacy
import Idealize.ShloMosaic.Init

noncomputable section

namespace Cert.Proof

open Idealize.ShloMosaic Idealize.ShloMosaic.TcCoe Idealize.SL.Sem

/-- The kernel program runs and leaves its arguments as launched. -/
theorem frame_k : @Cert.frame_Kernel Cert.Kernel.Gen.facts Cert.Pre_finite_inputs.Gen.facts :=
  fun m ρ _ => Cert.Kernel.Gen.frame m ρ

/-- So does its reading on the extended reals. -/
theorem frame_ki : @Cert.frame_KernelIdeal Cert.KernelIdeal.Gen.facts Cert.Pre_finite_inputs.Gen.facts :=
  fun m ρ _ => Cert.KernelIdeal.Gen.frame m ρ

/-- The array program's frame is its run with the result forgotten. -/
theorem frame_ri : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- Nothing was rewritten when the kernel was read on the extended reals. -/
theorem preserves : Cert.preserves_Kernel_KernelIdeal := trivial

/-- From memories agreeing on the eleven arguments both programs end with the result at the specification's function
    of those arguments: the kernel program at the form with the query scaled first, the array program at the form with
    the scores divided afterwards, and the two forms are one function. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.MHA.outK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KValue.result m ρ c), (h c).2⟩) (Cert.KRun.run (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8, a9, a10⟩ := hagree c
    rw [Cert.ReferenceIdeal.Read.val_main_v39_eq, Cert.RefValue.ref_eq, ← Cert.MHA.outK_eq_outR,
      a0, a1, a2, a3, a4, a5, a6, a7, a8, a9, a10]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
